-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S256x1024 : Shape := ⟨2, ![256, 1024]⟩
abbrev S256 : Shape := ⟨1, ![256]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S256 .f32) (main_arg5 : FVec F S256x1024 .f32) (main_arg6 : FVec F S256 .f32) (main_arg7 : FVec F S1024x1024 .f32) (main_arg8 : FVec F S1024 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S4x4096x1024 .f32) (main_arg1 : FVec F S4x4096x1024 .f32) (main_arg2 : FVec F S4x4096x1024 .f32) (main_arg3 : FVec F S256x1024 .f32) (main_arg4 : FVec F S256 .f32) (main_arg5 : FVec F S256x1024 .f32) (main_arg6 : FVec F S256 .f32) (main_arg7 : FVec F S1024x1024 .f32) (main_arg8 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_arg5 main_arg6 main_arg7 main_arg8 main_v13 main_v16
-- ==== Kernel.lean ====
abbrev S4x4096x1024 : Shape := ⟨3, ![4, 4096, 1024]⟩
abbrev S256x1024 : Shape := ⟨2, ![256, 1024]⟩
abbrev S256 : Shape := ⟨1, ![256]⟩
abbrev S1024x1024 : Shape := ⟨2, ![1024, 1024]⟩
abbrev S1024 : Shape := ⟨1, ![1024]⟩
abbrev S16384x1024 : Shape := ⟨2, ![16384, 1024]⟩
abbrev S1x256 : Shape := ⟨2, ![1, 256]⟩
abbrev S1x1024 : Shape := ⟨2, ![1, 1024]⟩
abbrev S16384x256 : Shape := ⟨2, ![16384, 256]⟩
abbrev S512x1024 : Shape := ⟨2, ![512, 1024]⟩
abbrev S512x256 : Shape := ⟨2, ![512, 256]⟩
abbrev S1024x256 : Shape := ⟨2, ![1024, 256]⟩
abbrev S4x4096x256 : Shape := ⟨3, ![4, 4096, 256]⟩
abbrev S1x1024x256 : Shape := ⟨3, ![1, 1024, 256]⟩
abbrev S1x512x256 : Shape := ⟨3, ![1, 512, 256]⟩
abbrev S1x512x1024 : Shape := ⟨3, ![1, 512, 1024]⟩
abbrev S1x1024x1024 : Shape := ⟨3, ![1, 1024, 1024]⟩
abbrev S256x512 : Shape := ⟨2, ![256, 512]⟩
abbrev S1024x512 : Shape := ⟨2, ![1024, 512]⟩

abbrev nBuf : Space → Nat
  | .hbm => 22
  | .vmem => 27
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S256x1024, .f32⟩
  | .hbm, ⟨4, _⟩ => ⟨S256, .f32⟩
  | .hbm, ⟨5, _⟩ => ⟨S256x1024, .f32⟩
  | .hbm, ⟨6, _⟩ => ⟨S256, .f32⟩
  | .hbm, ⟨7, _⟩ => ⟨S1024x1024, .f32⟩
  | .hbm, ⟨8, _⟩ => ⟨S1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S1x256, .f32⟩
  | .hbm, ⟨13, _⟩ => ⟨S1x256, .f32⟩
  | .hbm, ⟨14, _⟩ => ⟨S1x1024, .f32⟩
  | .hbm, ⟨15, _⟩ => ⟨S16384x256, .bf16⟩
  | .hbm, ⟨16, _⟩ => ⟨S16384x256, .bf16⟩
  | .hbm, ⟨17, _⟩ => ⟨S16384x1024, .bf16⟩
  | .hbm, ⟨18, _⟩ => ⟨S4x4096x256, .bf16⟩
  | .hbm, ⟨19, _⟩ => ⟨S4x4096x256, .bf16⟩
  | .hbm, ⟨20, _⟩ => ⟨S4x4096x1024, .bf16⟩
  | .hbm, ⟨21, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S256x1024, .f32⟩
  | .local _ .vmem, ⟨7, _⟩ => ⟨S1x256, .f32⟩
  | .local _ .vmem, ⟨8, _⟩ => ⟨S256x1024, .f32⟩
  | .local _ .vmem, ⟨9, _⟩ => ⟨S1x256, .f32⟩
  | .local _ .vmem, ⟨10, _⟩ => ⟨S1024x1024, .f32⟩
  | .local _ .vmem, ⟨11, _⟩ => ⟨S1x1024, .f32⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x1024, .bf16⟩
  | .local _ .vmem, ⟨17, _⟩ => ⟨S512x1024, .bf16⟩
  | .local _ .vmem, ⟨18, _⟩ => ⟨S1x1024x256, .bf16⟩
  | .local _ .vmem, ⟨19, _⟩ => ⟨S1x1024x256, .bf16⟩
  | .local _ .vmem, ⟨20, _⟩ => ⟨S1x512x256, .bf16⟩
  | .local _ .vmem, ⟨21, _⟩ => ⟨S1x512x256, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x1024x1024, .f32⟩
  | .local _ .vmem, ⟨25, _⟩ => ⟨S1x1024x1024, .f32⟩
  | .local _ .vmem, ⟨26, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_15 : BitVec 32 := 0#32
  let v23 : BitVec 1 := Scalar.cmpi .ne v22 c0_i32_15
  v23

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x4096x1024_S16384x1024 : S4x4096x1024.ShapeCasts S16384x1024
  shapeCasts_S256_S1x256 : S256.ShapeCasts S1x256
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  transposes_S256x1024_p1_0_S1024x256 : S256x1024.Transposes [1, 0] S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  packedbf16_S512x1024_S512x1024_0_0 : (Rect.unit (s := S512x1024) ![0, 0] S512x1024.size inb_S512x1024_S512x1024_0_0).PackedRows (EltTy.packing .bf16)
  shapeCasts_S16384x256_S4x4096x256 : S16384x256.ShapeCasts S4x4096x256
  shapeCasts_S16384x1024_S4x4096x1024 : S16384x1024.ShapeCasts S4x4096x1024
  shapeCasts_S1024x1024_S1024x1024 : S1024x1024.ShapeCasts S1024x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x256_p1_0_S256x512 : S512x256.Transposes [1, 0] S256x512
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S512x1024_S1024x256_S512x256_1_0_0_1_n_n_wf : DotDims.WF S512x1024 S1024x256 S512x256 [1] [0] [0] [1] [] []
  dot_S512x1024_S1024x1024_S512x1024_1_0_0_1_n_n_wf : DotDims.WF S512x1024 S1024x1024 S512x1024 [1] [0] [0] [1] [] []
  dot_S1024x256_S256x512_S1024x512_1_0_0_1_n_n_wf : DotDims.WF S1024x256 S256x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .f32 = 32 ∨ (Rect.block (s := S256x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .f32 = 32 ∨ (Rect.block (s := S256x1024) S256x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .f32 = 32 ∨ (Rect.block (s := S1024x1024) S1024x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S16384x256.size a
  hwx0_9 : ∀ i : grid0.Coords, EltTy.bits .bf16 = 32 ∨ (Rect.block (s := S16384x256) S512x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S16384x256.size a
  hwx0_10 : ∀ i : grid0.Coords, EltTy.bits .bf16 = 32 ∨ (Rect.block (s := S16384x256) S512x256.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S16384x1024.size a
  hwx0_11 : ∀ i : grid0.Coords, EltTy.bits .bf16 = 32 ∨ (Rect.block (s := S16384x1024) S512x1024.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S4x4096x256.size a
  hwx1_0 : ∀ i : grid1.Coords, EltTy.bits .bf16 = 32 ∨ (Rect.block (s := S4x4096x256) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x256.size a ≤ S4x4096x256.size a
  hwx1_1 : ∀ i : grid1.Coords, EltTy.bits .bf16 = 32 ∨ (Rect.block (s := S4x4096x256) S1x512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x4096x1024.size a
  hwx1_2 : ∀ i : grid1.Coords, EltTy.bits .bf16 = 32 ∨ (Rect.block (s := S4x4096x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x4096x1024.size a
  hwx1_3 : ∀ i : grid1.Coords, EltTy.bits .f32 = 32 ∨ (Rect.block (s := S4x4096x1024) S1x1024x1024.size (cc1_transform_3 i) (hinb1_3 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_0) S512x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_1) S512x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_2) S512x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v7) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S256x1024 : Shape := ⟨2, ![256, 1024]⟩
abbrev S256 : Shape := ⟨1, ![256]⟩
abbrev S1024x1024 : Shape := ⟨2, ![1024, 1024]⟩
abbrev S1024 : Shape := ⟨1, ![1024]⟩
abbrev S4x4096x256 : Shape := ⟨3, ![4, 4096, 256]⟩
abbrev S1x1x256 : Shape := ⟨3, ![1, 1, 256]⟩
abbrev S1x1x1024 : Shape := ⟨3, ![1, 1, 1024]⟩
abbrev S4x4096x4096 : Shape := ⟨3, ![4, 4096, 4096]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S256x1024, .f32⟩
  | .hbm, ⟨4, _⟩ => ⟨S256, .f32⟩
  | .hbm, ⟨5, _⟩ => ⟨S256x1024, .f32⟩
  | .hbm, ⟨6, _⟩ => ⟨S256, .f32⟩
  | .hbm, ⟨7, _⟩ => ⟨S1024x1024, .f32⟩
  | .hbm, ⟨8, _⟩ => ⟨S1024, .f32⟩
  | .hbm, ⟨9, _⟩ => ⟨S4x4096x256, .f32⟩
  | .hbm, ⟨10, _⟩ => ⟨S1x1x256, .f32⟩
  | .hbm, ⟨11, _⟩ => ⟨S4x4096x256, .f32⟩
  | .hbm, ⟨12, _⟩ => ⟨S4x4096x256, .f32⟩
  | .hbm, ⟨13, _⟩ => ⟨S4x4096x256, .f32⟩
  | .hbm, ⟨14, _⟩ => ⟨S1x1x256, .f32⟩
  | .hbm, ⟨15, _⟩ => ⟨S4x4096x256, .f32⟩
  | .hbm, ⟨16, _⟩ => ⟨S4x4096x256, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S4x4096x4096, .f32⟩
  | .hbm, ⟨32, _⟩ => ⟨S4x4096x4096, .f32⟩
  | .hbm, ⟨33, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x4096 : S_.BroadcastsInDim S4x4096x4096 (![] : Fin 0 → Fin S4x4096x4096.rank)
  dot_S4x4096x1024_S256x1024_S4x4096x256_2_1_01_0_n_n_wf : DotDims.WF S4x4096x1024 S256x1024 S4x4096x256 [2] [1] [0, 1] [0] [] []
  dot_S4x4096x1024_S1024x1024_S4x4096x1024_2_1_01_0_n_n_wf : DotDims.WF S4x4096x1024 S1024x1024 S4x4096x1024 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S256x1024_S4x4096x256_2_1_01_0_n_n : DotDims S4x4096x1024 S256x1024 S4x4096x256 where
  lhsContracting := [2]
  rhsContracting := [1]
  lhsNonContracting := [0, 1]
  rhsNonContracting := [0]
  lhsBatch := []
  rhsBatch := []
  wf := dot_S4x4096x1024_S256x1024_S4x4096x256_2_1_01_0_n_n_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.K.R0.lean ====
import proofs.«163519_j26173530702693_1_alg».proof.Proof.Gen.Kernel.Launch
import proofs.«163519_j26173530702693_1_alg».proof.Proof.Gen.Kernel.Skeleton
import proofs.«163519_j26173530702693_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The three projections: the first region of @main

The first pallas_call computes, per block of 512 rows, the three products of a 512×1024 block of rows with a transposed
weight matrix plus a bias row, each rounded to bf16. This file states, at any contents `V` of the TensorCore's buffers
when the region is entered, what each window's staging buffer holds after the body at a grid point, proves the body's
triple against those contents, and discharges the pipeline's body obligation. Everything is generic in the float
interpretation `F`. -/

-- membership in a rectangle of large extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: its current staging buffer holds its block at every point, whether or not the pipeline fetched
    it there (unfetched, the block index has not moved, so the previous point's block is this one's), for any proof
    data whose array is `V`'s and whose body leaves the block in place. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1: its current staging buffer holds its block at every point, whether or not the pipeline fetched
    it there (unfetched, the block index has not moved, so the previous point's block is this one's), for any proof
    data whose array is `V`'s and whose body leaves the block in place. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2: its current staging buffer holds its block at every point, whether or not the pipeline fetched
    it there (unfetched, the block index has not moved, so the previous point's block is this one's), for any proof
    data whose array is `V`'s and whose body leaves the block in place. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3: its current staging buffer holds its block at every point, whether or not the pipeline fetched
    it there (unfetched, the block index has not moved, so the previous point's block is this one's), for any proof
    data whose array is `V`'s and whose body leaves the block in place. The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4: its current staging buffer holds its block at every point, whether or not the pipeline fetched
    it there (unfetched, the block index has not moved, so the previous point's block is this one's), for any proof
    data whose array is `V`'s and whose body leaves the block in place. The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5: its current staging buffer holds its block at every point, whether or not the pipeline fetched
    it there (unfetched, the block index has not moved, so the previous point's block is this one's), for any proof
    data whose array is `V`'s and whose body leaves the block in place. The window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6: its current staging buffer holds its block at every point, whether or not the pipeline fetched
    it there (unfetched, the block index has not moved, so the previous point's block is this one's), for any proof
    data whose array is `V`'s and whose body leaves the block in place. The window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7: its current staging buffer holds its block at every point, whether or not the pipeline fetched
    it there (unfetched, the block index has not moved, so the previous point's block is this one's), for any proof
    data whose array is `V`'s and whose body leaves the block in place. The window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8: its current staging buffer holds its block at every point, whether or not the pipeline fetched
    it there (unfetched, the block index has not moved, so the previous point's block is this one's), for any proof
    data whose array is `V`'s and whose body leaves the block in place. The window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole staging buffer -/

abbrev r0_0 : Rect S512x1024 := Rect.unit (s := S512x1024) ![0, 0] S512x1024.size inb_S512x1024_S512x1024_0_0
abbrev r0_1 : Rect S256x1024 := Rect.unit (s := S256x1024) ![0, 0] S256x1024.size inb_S256x1024_S256x1024_0_0
abbrev r0_2 : Rect S1x256 := Rect.unit (s := S1x256) ![0, 0] S1x256.size inb_S1x256_S1x256_0_0
abbrev r0_3 : Rect S1024x1024 := Rect.unit (s := S1024x1024) ![0, 0] S1024x1024.size inb_S1024x1024_S1024x1024_0_0
abbrev r0_4 : Rect S1x1024 := Rect.unit (s := S1x1024) ![0, 0] S1x1024.size inb_S1x1024_S1x1024_0_0
abbrev r0_5 : Rect S512x256 := Rect.unit (s := S512x256) ![0, 0] S512x256.size inb_S512x256_S512x256_0_0

/-! ## What the body leaves in each output window's buffer -/

/-- The first projection's staging buffer after the body: one store of the whole buffer, its payload the product of the
    row block with the transposed weights plus the bias row, rounded. -/
def out0_9 (x0 : Vec F S512x1024 .f32) (x3 : Vec F S256x1024 .f32) (x4 : Vec F S1x256 .f32) : Vec F S512x256 .bf16 :=
  View.canon [⟨r0_5, k0_pay5 (View.ld x0 r0_0) (View.ld x3 r0_1) (View.ld x4 r0_2)⟩]

/-- The second projection's, likewise. -/
def out0_10 (x1 : Vec F S512x1024 .f32) (x5 : Vec F S256x1024 .f32) (x6 : Vec F S1x256 .f32) : Vec F S512x256 .bf16 :=
  View.canon [⟨r0_5, k0_pay1 (k0_pay3 (View.ld x1 r0_0) (View.ld x5 r0_1) (View.ld x6 r0_2))⟩]

/-- The third projection's, likewise, at the full width. -/
def out0_11 (x2 : Vec F S512x1024 .f32) (x7 : Vec F S1024x1024 .f32) (x8 : Vec F S1x1024 .f32) : Vec F S512x1024 .bf16 :=
  View.canon [⟨r0_0, k0_pay2 (k0_pay4 (View.ld x2 r0_0) (View.ld x7 r0_3) (View.ld x8 r0_4))⟩]

/-- A single store of the whole 512×256 buffer covers it. -/
theorem cover0_9 (p0 : Vec F S512x256 .bf16) (y : S512x256.Idx) :
    ∃ pc ∈ ([⟨r0_5, p0⟩] : List (View.Piece (Elt F) S512x256 .bf16)), y ∈ pc.1.set :=
  View.cover_of_tiled [⟨r0_5, p0⟩] S512x256.size (by rfl) y

theorem cover0_10 (p0 : Vec F S512x256 .bf16) (y : S512x256.Idx) :
    ∃ pc ∈ ([⟨r0_5, p0⟩] : List (View.Piece (Elt F) S512x256 .bf16)), y ∈ pc.1.set :=
  cover0_9 p0 y

/-- A single store of the whole 512×1024 buffer covers it. -/
theorem cover0_11 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 4000000 in
/-- The body on whole staging memrefs, the nine inputs' at read contents `x0 … x8` and the three outputs' at anything,
    runs to the continuation holding the inputs' as they were and each output's at its projection of the inputs'. -/
theorem sound_kernel0 (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S1x256 .f32) (harg5 : arg5.IsWhole) (arg6 : Memref sig .tc .vmem S256x1024 .f32) (harg6 : arg6.IsWhole) (arg7 : Memref sig .tc .vmem S1x256 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x1024 .bf16) (harg12 : arg12.IsWhole)
    (x0 : Vec F S512x1024 .f32) (x1 : Vec F S512x1024 .f32) (x2 : Vec F S512x1024 .f32) (x3 : Vec F S256x1024 .f32) (x4 : Vec F S1x256 .f32) (x5 : Vec F S256x1024 .f32) (x6 : Vec F S1x256 .f32) (x7 : Vec F S1024x1024 .f32) (x8 : Vec F S1x1024 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (∃ d, owns (c : Thread nD τ) arg11 fullShare d)
        ∗ (∃ d, owns (c : Thread nD τ) arg12 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare (out0_9 x0 x3 x4)
          ∗ owns (c : Thread nD τ) arg11 fullShare (out0_10 x1 x5 x6)
          ∗ owns (c : Thread nD τ) arg12 fullShare (out0_11 x2 x7 x8)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_9 _)
  isplitl [H10]
  · iexists _; isplitr
    swap; · iexact H10
    ipureintro
    exact View.read_writes_eq_canon _ _ _ (cover0_10 _)
  iexists _; isplitr
  swap; · iexact H11
  ipureintro
  exact View.read_writes_eq_canon _ _ _ (cover0_11 _)

/-! ## The pipeline's proof data -/

/-- The proof data of the region's pipeline on core `c`: the arrays as the region finds them (`V`); after the body at
    point `t` each input's buffer still at its block and each output's at its projection of the input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 3 t) (iblk0 V c 4 t)
    | ⟨10, _⟩ => out0_10 (iblk0 V c 1 t) (iblk0 V c 5 t) (iblk0 V c 6 t)
    | ⟨11, _⟩ => out0_11 (iblk0 V c 2 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 3 t) (iblk0 V c 4 t) := by dsimp only [dat0]
theorem after0_10 (c : Dev nD) (t : Fin cfg0.N) : (dat0 V c).after 10 t = out0_10 (iblk0 V c 1 t) (iblk0 V c 5 t) (iblk0 V c 6 t) := by dsimp only [dat0]
theorem after0_11 (c : Dev nD) (t : Fin cfg0.N) : (dat0 V c).after 11 t = out0_11 (iblk0 V c 2 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 1000000 in
/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.R1Shared.lean ====
/-
  The attention region (the second kernel call), first part: what its runs are stated over.
  The grid is (batch, query tile, key tile) = 4 × 4 × 8, the key tile innermost. At a point the body
  zeroes its accumulator when the key tile is the first, adds the tile's contribution, and copies the
  accumulator to the output block when the key tile is the last. So a point is in one of three cases:
  first key tile, a middle one, the last one.
-/
import proofs.«163519_j26173530702693_1_alg».proof.Proof.Gen.Kernel.Launch
import proofs.«163519_j26173530702693_1_alg».proof.Proof.Gen.Kernel.Skeleton
import proofs.«163519_j26173530702693_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
-- membership in a rectangle of full-size extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is
    not fetched its block index has not moved), for any proof data whose array is the entry contents and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, in closed form over the grid -/

/-- "The key tile is the first": the condition under which the body zeroes its accumulator. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "The key tile is the last": the condition under which the body copies the accumulator out. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the body stores nothing into the output block, and the block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last key tile the output block is stored. -/
theorem liveAt1_3 : ∀ t : Fin cfg1.N, cond1_1 (grid1.coords t) → cfg1.idle 3 (grid1.coords t) = false := by decide +kernel

/-! ## The memrefs the body is called with -/

/-- One staging buffer of the output window, through which its contents are stated (which one does not matter). -/
abbrev VO1_3 : View sig .tc .vmem S1x1024x1024 .f32 := (Memref.whole cc1_stg3_0 : Memref sig .tc .vmem S1x1024x1024 .f32).view
abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S1024x1024 .f32 := Memref.whole cc1_scratch0
abbrev VS1_0 : View sig .tc .vmem S1024x1024 .f32 := scM1_0.view

/-- The scoped buffers of the core other than this call's staging buffers and its accumulator (the first call's
    staging buffers): carried through this region unopened. -/
abbrev others1 (c : Dev nD) : sProp 𝕄 :=
  Pipeline.scopedRestBut (Ix := Unit) (Name := ℕ) (U := UR sig nD τ) (Lvl := ℕ) (Val := Elt F) spec1 c [cc1_scratch0]

/-- The region's plain invariant with the accumulator split off as a memref owned at some contents. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [scM1_0, owns_whole, bigSepL]
  rfl

end Cert.Kernel.Hand

end
-- ==== Proof.K.R1RunA.lean ====
/-
  The attention region, the body's run at a point of the FIRST key tile.
  The run is found by symbolic execution of the body's skeleton; what it leaves in the accumulator (and in the
  output block, where the case stores it) is recorded as the list of pieces written, last first.
-/
import proofs.«163519_j26173530702693_1_alg».proof.Proof.K.R1Shared
-- membership in a rectangle of full-size extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- First key tile, not the last: the accumulator (at anything) is zeroed, then the tile's contribution is added
    into it; the output block is left as found. -/
noncomputable def kernelRun1_A (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : cond1_0 i) (hc1 : ¬cond1_1 i)
    (x0 : Vec F S1x1024x256 .bf16) (x1 : Vec F S1x512x256 .bf16) (x2 : Vec F S1x512x1024 .bf16) :
    Σ' (L3 : List (View.Piece (Elt F) S1x1024x1024 .f32)), { LS0 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg3 harg3 arg4 harg4 arg5 harg5 arg6 harg6 arg7 harg7) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.R1RunB.lean ====
/-
  The attention region, the body's run at a point of a MIDDLE key tile.
  The run is found by symbolic execution of the body's skeleton; what it leaves in the accumulator (and in the
  output block, where the case stores it) is recorded as the list of pieces written, last first.
-/
import proofs.«163519_j26173530702693_1_alg».proof.Proof.K.R1Shared
-- membership in a rectangle of full-size extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Neither the first key tile nor the last: the tile's contribution is added into the accumulator, which holds
    what the point before left; the output block is left as found. -/
noncomputable def kernelRun1_B (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond1_0 i) (hc1 : ¬cond1_1 i)
    (x0 : Vec F S1x1024x256 .bf16) (x1 : Vec F S1x512x256 .bf16) (x2 : Vec F S1x512x1024 .bf16) (xs0 : Vec F S1024x1024 .f32) :
    Σ' (L3 : List (View.Piece (Elt F) S1x1024x1024 .f32)), { LS0 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg3 harg3 arg4 harg4 arg5 harg5 arg6 harg6 arg7 harg7) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.R1RunC.lean ====
/-
  The attention region, the body's run at a point of the LAST key tile.
  The run is found by symbolic execution of the body's skeleton; what it leaves in the accumulator (and in the
  output block, where the case stores it) is recorded as the list of pieces written, last first.
-/
import proofs.«163519_j26173530702693_1_alg».proof.Proof.K.R1Shared
-- membership in a rectangle of full-size extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last key tile (not the first): the tile's contribution is added into the accumulator, which holds what
    the point before left, and the accumulator is copied to the output block. -/
noncomputable def kernelRun1_C (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond1_0 i) (hc1 : cond1_1 i)
    (x0 : Vec F S1x1024x256 .bf16) (x1 : Vec F S1x512x256 .bf16) (x2 : Vec F S1x512x1024 .bf16) (xs0 : Vec F S1024x1024 .f32) :
    Σ' (L3 : List (View.Piece (Elt F) S1x1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg3 harg3 arg4 harg4 arg5 harg5 arg6 harg6 arg7 harg7) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.K.R1.lean ====
/-
  The attention region, second part: what the accumulator and the output block hold after each grid point, the
  invariant that carries the accumulator from point to point, the region's proof data and the body obligation.

  After a point of the first key tile the accumulator holds zero plus that tile's contribution; after any other
  point it holds what the point before left plus the tile's contribution; at the last key tile the output block
  receives the accumulator. Between points the invariant holds the accumulator at exactly these contents, beside
  the scoped buffers this region never opens and the generator register.
-/
import proofs.«163519_j26173530702693_1_alg».proof.Proof.K.R1RunA
import proofs.«163519_j26173530702693_1_alg».proof.Proof.K.R1RunB
import proofs.«163519_j26173530702693_1_alg».proof.Proof.K.R1RunC
-- membership in a rectangle of full-size extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- First key tile: nothing is stored into the output block (a placeholder nothing consults: the block is neither
    written back nor read at the next point). -/
def out1_A_3 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : cond1_0 i) (hc1 : ¬cond1_1 i)
    (x0 : Vec F S1x1024x256 .bf16) (x1 : Vec F S1x512x256 .bf16) (x2 : Vec F S1x512x1024 .bf16) : Vec F S1x1024x1024 .f32 :=
  VO1_3.read (Elt F) (VO1_3.writes (Elt F) VO1_3.junk (kernelRun1_A c i arg3 harg3 arg4 harg4 arg5 harg5 arg6 harg6 arg7 harg7 hc0 hc1 x0 x1 x2).1)
/-- First key tile: the pieces written into the accumulator cover it. -/
theorem scover1_A_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : cond1_0 i) (hc1 : ¬cond1_1 i)
    (x0 : Vec F S1x1024x256 .bf16) (x1 : Vec F S1x512x256 .bf16) (x2 : Vec F S1x512x1024 .bf16) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y
/-- What the first key tile leaves in the accumulator. -/
def sout1_A_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : cond1_0 i) (hc1 : ¬cond1_1 i)
    (x0 : Vec F S1x1024x256 .bf16) (x1 : Vec F S1x512x256 .bf16) (x2 : Vec F S1x512x1024 .bf16) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

def out1_B_3 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond1_0 i) (hc1 : ¬cond1_1 i)
    (x0 : Vec F S1x1024x256 .bf16) (x1 : Vec F S1x512x256 .bf16) (x2 : Vec F S1x512x1024 .bf16) (xs0 : Vec F S1024x1024 .f32) : Vec F S1x1024x1024 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond1_0 i) (hc1 : ¬cond1_1 i)
    (x0 : Vec F S1x1024x256 .bf16) (x1 : Vec F S1x512x256 .bf16) (x2 : Vec F S1x512x1024 .bf16) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y
def sout1_B_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond1_0 i) (hc1 : ¬cond1_1 i)
    (x0 : Vec F S1x1024x256 .bf16) (x1 : Vec F S1x512x256 .bf16) (x2 : Vec F S1x512x1024 .bf16) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

theorem cover1_C_3 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond1_0 i) (hc1 : cond1_1 i)
    (x0 : Vec F S1x1024x256 .bf16) (x1 : Vec F S1x512x256 .bf16) (x2 : Vec F S1x512x1024 .bf16) (xs0 : Vec F S1024x1024 .f32) (y : S1x1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1x1024x1024.size (by sl_kernel_rfl) y
/-- Last key tile: what is stored into the output block. -/
def out1_C_3 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond1_0 i) (hc1 : cond1_1 i)
    (x0 : Vec F S1x1024x256 .bf16) (x1 : Vec F S1x512x256 .bf16) (x2 : Vec F S1x512x1024 .bf16) (xs0 : Vec F S1024x1024 .f32) : Vec F S1x1024x1024 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond1_0 i) (hc1 : cond1_1 i)
    (x0 : Vec F S1x1024x256 .bf16) (x1 : Vec F S1x512x256 .bf16) (x2 : Vec F S1x512x1024 .bf16) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y
def sout1_C_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond1_0 i) (hc1 : cond1_1 i)
    (x0 : Vec F S1x1024x256 .bf16) (x1 : Vec F S1x512x256 .bf16) (x2 : Vec F S1x512x1024 .bf16) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

section Region1

variable (V : (c : Dev nD) → (b : Ref sig .tc) → Buf (Elt F) ((c : Thread nD τ).loc b))

/-! ## Point by point -/

/-- What the output block's staging buffer and the accumulator hold after the body at position `n`: the case the
    closed forms select there, run at the point's memrefs and input blocks, over what the accumulator held after
    position `n - 1`. A point cannot be of the first and of the last key tile at once. -/
def outsAt1 (c : Dev nD) : (n : ℕ) → n < cfg1.N → Vec F S1x1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the region's entry the plain invariant (the accumulator at anything); afterwards the
    accumulator at what the point before left, the unopened scoped buffers, and the generator register. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The proof data -/

/-- The region's proof data on core `c`: the arrays as the region finds them; after the body at point `t` each
    input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Region1

end Cert.Kernel.Hand

end
-- ==== Proof.K.R1Body.lean ====
/-
  The attention region, third part: the body obligation. At a point the closed forms of the two conditions say
  which case the point is in; the invariant hands the body the accumulator at what the point before left (at
  anything before the first point), and takes it back at this point's contents.
-/
import proofs.«163519_j26173530702693_1_alg».proof.Proof.K.R1
-- membership in a rectangle of full-size extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · by_cases h1 : t.val % 8 = 7
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the plain one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

theorem hout1 (c : Dev nD) : (dat1 V c).Φ (Fin.last cfg1.N) ⊢ Pipeline.ΦA spec1 c :=
  Phi_out1 V c _ (by rw [Fin.val_last]; have : cfg1.N = 128 := N_1; omega)

end Region1

end Cert.Kernel.Hand

end
-- ==== Proof.K.Run.lean ====
/-
  The kernel program's run. @main is four segments: three host reshapes of the inputs and of the biases, the
  projection call, three host reshapes of its results, the attention call. The buffer contents at each segment
  boundary are a fold from the launch memory: a host stretch applies its operations; a kernel call leaves each of
  its arrays at what its write-backs fold to and every other buffer as it found it. Every weakly fair execution
  terminates, and the final memory holds every unscoped buffer at the last fold: the arguments as launched, and
  the result array at what the attention call leaves.
-/
import proofs.«163519_j26173530702693_1_alg».proof.Proof.K.R0
import proofs.«163519_j26173530702693_1_alg».proof.Proof.K.R1Body
import proofs.«163519_j26173530702693_1_alg».proof.Proof.Gen.Kernel.Regions
-- membership in a rectangle of full-size extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the projection call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A host stretch changes only the buffers its operations write. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := W1_of m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := W1_of m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := (W2_arr m ρ c 7).trans (((dat0 (V1 m ρ) c).arrAt_in 7 rfl _).trans (A_eq0 (V1 m ρ) c 7))
    _ = W0 m ρ c (Proc.devRef .tc main_arg7) := W1_of m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-- The result array ends at what the attention call leaves in it. -/
theorem W4_main_v10 (c : Dev nD) : W4 m ρ c (Proc.devRef .tc main_v10) = (dat1 (V3 m ρ) c).arrAt 3 cfg1.N :=
  W4_arr m ρ c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection call over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at `W3`, left at `W4`. Its
    invariant is entered at the plain one and gives the plain one back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds every unscoped buffer at the last fold `W4`; any post that follows from that holds. -/
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  run_all m ρ fun s h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩

/-- THE RUN WITH THE RESULT NAMED: the result array ends at what the attention call leaves, the arguments as launched. -/
theorem run_result : θ_run defs (onTc (τ := τ) (main (F := F))) ⟨m, fun _ => 0, ρ⟩ (fun r => ∀ c : Dev nD,
      r.2.mem ((c.tc : Thread nD τ).loc main_v10) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_all m ρ fun s h c =>
    ⟨(h c _ (mem_uc main_v10 (by decide))).trans (W4_main_v10 m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩

end Cert.Kernel.Hand

end
-- ==== Proof.KI.R0.lean ====
import proofs.«163519_j26173530702693_1_alg».proof.Proof.Gen.KernelIdeal.Launch
import proofs.«163519_j26173530702693_1_alg».proof.Proof.Gen.KernelIdeal.Skeleton
import proofs.«163519_j26173530702693_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The three projections: the first region of @main

The first pallas_call computes, per block of 512 rows, the three products of a 512×1024 block of rows with a transposed
weight matrix plus a bias row, each rounded to bf16. This file states, at any contents `V` of the TensorCore's buffers
when the region is entered, what each window's staging buffer holds after the body at a grid point, proves the body's
triple against those contents, and discharges the pipeline's body obligation. Everything is generic in the float
interpretation `F`. -/

-- membership in a rectangle of large extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: its current staging buffer holds its block at every point, whether or not the pipeline fetched
    it there (unfetched, the block index has not moved, so the previous point's block is this one's), for any proof
    data whose array is `V`'s and whose body leaves the block in place. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1: its current staging buffer holds its block at every point, whether or not the pipeline fetched
    it there (unfetched, the block index has not moved, so the previous point's block is this one's), for any proof
    data whose array is `V`'s and whose body leaves the block in place. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2: its current staging buffer holds its block at every point, whether or not the pipeline fetched
    it there (unfetched, the block index has not moved, so the previous point's block is this one's), for any proof
    data whose array is `V`'s and whose body leaves the block in place. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3: its current staging buffer holds its block at every point, whether or not the pipeline fetched
    it there (unfetched, the block index has not moved, so the previous point's block is this one's), for any proof
    data whose array is `V`'s and whose body leaves the block in place. The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4: its current staging buffer holds its block at every point, whether or not the pipeline fetched
    it there (unfetched, the block index has not moved, so the previous point's block is this one's), for any proof
    data whose array is `V`'s and whose body leaves the block in place. The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5: its current staging buffer holds its block at every point, whether or not the pipeline fetched
    it there (unfetched, the block index has not moved, so the previous point's block is this one's), for any proof
    data whose array is `V`'s and whose body leaves the block in place. The window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6: its current staging buffer holds its block at every point, whether or not the pipeline fetched
    it there (unfetched, the block index has not moved, so the previous point's block is this one's), for any proof
    data whose array is `V`'s and whose body leaves the block in place. The window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7: its current staging buffer holds its block at every point, whether or not the pipeline fetched
    it there (unfetched, the block index has not moved, so the previous point's block is this one's), for any proof
    data whose array is `V`'s and whose body leaves the block in place. The window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8: its current staging buffer holds its block at every point, whether or not the pipeline fetched
    it there (unfetched, the block index has not moved, so the previous point's block is this one's), for any proof
    data whose array is `V`'s and whose body leaves the block in place. The window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole staging buffer -/

abbrev r0_0 : Rect S512x1024 := Rect.unit (s := S512x1024) ![0, 0] S512x1024.size inb_S512x1024_S512x1024_0_0
abbrev r0_1 : Rect S256x1024 := Rect.unit (s := S256x1024) ![0, 0] S256x1024.size inb_S256x1024_S256x1024_0_0
abbrev r0_2 : Rect S1x256 := Rect.unit (s := S1x256) ![0, 0] S1x256.size inb_S1x256_S1x256_0_0
abbrev r0_3 : Rect S1024x1024 := Rect.unit (s := S1024x1024) ![0, 0] S1024x1024.size inb_S1024x1024_S1024x1024_0_0
abbrev r0_4 : Rect S1x1024 := Rect.unit (s := S1x1024) ![0, 0] S1x1024.size inb_S1x1024_S1x1024_0_0
abbrev r0_5 : Rect S512x256 := Rect.unit (s := S512x256) ![0, 0] S512x256.size inb_S512x256_S512x256_0_0

/-! ## What the body leaves in each output window's buffer -/

/-- The first projection's staging buffer after the body: one store of the whole buffer, its payload the product of the
    row block with the transposed weights plus the bias row, rounded. -/
def out0_9 (x0 : Vec F S512x1024 .f32) (x3 : Vec F S256x1024 .f32) (x4 : Vec F S1x256 .f32) : Vec F S512x256 .bf16 :=
  View.canon [⟨r0_5, k0_pay5 (View.ld x0 r0_0) (View.ld x3 r0_1) (View.ld x4 r0_2)⟩]

/-- The second projection's, likewise. -/
def out0_10 (x1 : Vec F S512x1024 .f32) (x5 : Vec F S256x1024 .f32) (x6 : Vec F S1x256 .f32) : Vec F S512x256 .bf16 :=
  View.canon [⟨r0_5, k0_pay1 (k0_pay3 (View.ld x1 r0_0) (View.ld x5 r0_1) (View.ld x6 r0_2))⟩]

/-- The third projection's, likewise, at the full width. -/
def out0_11 (x2 : Vec F S512x1024 .f32) (x7 : Vec F S1024x1024 .f32) (x8 : Vec F S1x1024 .f32) : Vec F S512x1024 .bf16 :=
  View.canon [⟨r0_0, k0_pay2 (k0_pay4 (View.ld x2 r0_0) (View.ld x7 r0_3) (View.ld x8 r0_4))⟩]

/-- A single store of the whole 512×256 buffer covers it. -/
theorem cover0_9 (p0 : Vec F S512x256 .bf16) (y : S512x256.Idx) :
    ∃ pc ∈ ([⟨r0_5, p0⟩] : List (View.Piece (Elt F) S512x256 .bf16)), y ∈ pc.1.set :=
  View.cover_of_tiled [⟨r0_5, p0⟩] S512x256.size (by rfl) y

theorem cover0_10 (p0 : Vec F S512x256 .bf16) (y : S512x256.Idx) :
    ∃ pc ∈ ([⟨r0_5, p0⟩] : List (View.Piece (Elt F) S512x256 .bf16)), y ∈ pc.1.set :=
  cover0_9 p0 y

/-- A single store of the whole 512×1024 buffer covers it. -/
theorem cover0_11 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 4000000 in
/-- The body on whole staging memrefs, the nine inputs' at read contents `x0 … x8` and the three outputs' at anything,
    runs to the continuation holding the inputs' as they were and each output's at its projection of the inputs'. -/
theorem sound_kernel0 (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S1x256 .f32) (harg5 : arg5.IsWhole) (arg6 : Memref sig .tc .vmem S256x1024 .f32) (harg6 : arg6.IsWhole) (arg7 : Memref sig .tc .vmem S1x256 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x1024 .bf16) (harg12 : arg12.IsWhole)
    (x0 : Vec F S512x1024 .f32) (x1 : Vec F S512x1024 .f32) (x2 : Vec F S512x1024 .f32) (x3 : Vec F S256x1024 .f32) (x4 : Vec F S1x256 .f32) (x5 : Vec F S256x1024 .f32) (x6 : Vec F S1x256 .f32) (x7 : Vec F S1024x1024 .f32) (x8 : Vec F S1x1024 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (∃ d, owns (c : Thread nD τ) arg11 fullShare d)
        ∗ (∃ d, owns (c : Thread nD τ) arg12 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare (out0_9 x0 x3 x4)
          ∗ owns (c : Thread nD τ) arg11 fullShare (out0_10 x1 x5 x6)
          ∗ owns (c : Thread nD τ) arg12 fullShare (out0_11 x2 x7 x8)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_9 _)
  isplitl [H10]
  · iexists _; isplitr
    swap; · iexact H10
    ipureintro
    exact View.read_writes_eq_canon _ _ _ (cover0_10 _)
  iexists _; isplitr
  swap; · iexact H11
  ipureintro
  exact View.read_writes_eq_canon _ _ _ (cover0_11 _)

/-! ## The pipeline's proof data -/

/-- The proof data of the region's pipeline on core `c`: the arrays as the region finds them (`V`); after the body at
    point `t` each input's buffer still at its block and each output's at its projection of the input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 3 t) (iblk0 V c 4 t)
    | ⟨10, _⟩ => out0_10 (iblk0 V c 1 t) (iblk0 V c 5 t) (iblk0 V c 6 t)
    | ⟨11, _⟩ => out0_11 (iblk0 V c 2 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 3 t) (iblk0 V c 4 t) := by dsimp only [dat0]
theorem after0_10 (c : Dev nD) (t : Fin cfg0.N) : (dat0 V c).after 10 t = out0_10 (iblk0 V c 1 t) (iblk0 V c 5 t) (iblk0 V c 6 t) := by dsimp only [dat0]
theorem after0_11 (c : Dev nD) (t : Fin cfg0.N) : (dat0 V c).after 11 t = out0_11 (iblk0 V c 2 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 1000000 in
/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.R1Shared.lean ====
/-
  The attention region (the second kernel call), first part: what its runs are stated over.
  The grid is (batch, query tile, key tile) = 4 × 4 × 8, the key tile innermost. At a point the body
  zeroes its accumulator when the key tile is the first, adds the tile's contribution, and copies the
  accumulator to the output block when the key tile is the last. So a point is in one of three cases:
  first key tile, a middle one, the last one.
-/
import proofs.«163519_j26173530702693_1_alg».proof.Proof.Gen.KernelIdeal.Launch
import proofs.«163519_j26173530702693_1_alg».proof.Proof.Gen.KernelIdeal.Skeleton
import proofs.«163519_j26173530702693_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
-- membership in a rectangle of full-size extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is
    not fetched its block index has not moved), for any proof data whose array is the entry contents and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, in closed form over the grid -/

/-- "The key tile is the first": the condition under which the body zeroes its accumulator. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "The key tile is the last": the condition under which the body copies the accumulator out. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the body stores nothing into the output block, and the block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last key tile the output block is stored. -/
theorem liveAt1_3 : ∀ t : Fin cfg1.N, cond1_1 (grid1.coords t) → cfg1.idle 3 (grid1.coords t) = false := by decide +kernel

/-! ## The memrefs the body is called with -/

/-- One staging buffer of the output window, through which its contents are stated (which one does not matter). -/
abbrev VO1_3 : View sig .tc .vmem S1x1024x1024 .f32 := (Memref.whole cc1_stg3_0 : Memref sig .tc .vmem S1x1024x1024 .f32).view
abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S1024x1024 .f32 := Memref.whole cc1_scratch0
abbrev VS1_0 : View sig .tc .vmem S1024x1024 .f32 := scM1_0.view

/-- The scoped buffers of the core other than this call's staging buffers and its accumulator (the first call's
    staging buffers): carried through this region unopened. -/
abbrev others1 (c : Dev nD) : sProp 𝕄 :=
  Pipeline.scopedRestBut (Ix := Unit) (Name := ℕ) (U := UR sig nD τ) (Lvl := ℕ) (Val := Elt F) spec1 c [cc1_scratch0]

/-- The region's plain invariant with the accumulator split off as a memref owned at some contents. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [scM1_0, owns_whole, bigSepL]
  rfl

end Cert.KernelIdeal.Hand

end
-- ==== Proof.KI.R1RunA.lean ====
/-
  The attention region, the body's run at a point of the FIRST key tile.
  The run is found by symbolic execution of the body's skeleton; what it leaves in the accumulator (and in the
  output block, where the case stores it) is recorded as the list of pieces written, last first.
-/
import proofs.«163519_j26173530702693_1_alg».proof.Proof.KI.R1Shared
-- membership in a rectangle of full-size extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- First key tile, not the last: the accumulator (at anything) is zeroed, then the tile's contribution is added
    into it; the output block is left as found. -/
noncomputable def kernelRun1_A (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : cond1_0 i) (hc1 : ¬cond1_1 i)
    (x0 : Vec F S1x1024x256 .bf16) (x1 : Vec F S1x512x256 .bf16) (x2 : Vec F S1x512x1024 .bf16) :
    Σ' (L3 : List (View.Piece (Elt F) S1x1024x1024 .f32)), { LS0 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg3 harg3 arg4 harg4 arg5 harg5 arg6 harg6 arg7 harg7) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R1RunB.lean ====
/-
  The attention region, the body's run at a point of a MIDDLE key tile.
  The run is found by symbolic execution of the body's skeleton; what it leaves in the accumulator (and in the
  output block, where the case stores it) is recorded as the list of pieces written, last first.
-/
import proofs.«163519_j26173530702693_1_alg».proof.Proof.KI.R1Shared
-- membership in a rectangle of full-size extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Neither the first key tile nor the last: the tile's contribution is added into the accumulator, which holds
    what the point before left; the output block is left as found. -/
noncomputable def kernelRun1_B (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond1_0 i) (hc1 : ¬cond1_1 i)
    (x0 : Vec F S1x1024x256 .bf16) (x1 : Vec F S1x512x256 .bf16) (x2 : Vec F S1x512x1024 .bf16) (xs0 : Vec F S1024x1024 .f32) :
    Σ' (L3 : List (View.Piece (Elt F) S1x1024x1024 .f32)), { LS0 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg3 harg3 arg4 harg4 arg5 harg5 arg6 harg6 arg7 harg7) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R1RunC.lean ====
/-
  The attention region, the body's run at a point of the LAST key tile.
  The run is found by symbolic execution of the body's skeleton; what it leaves in the accumulator (and in the
  output block, where the case stores it) is recorded as the list of pieces written, last first.
-/
import proofs.«163519_j26173530702693_1_alg».proof.Proof.KI.R1Shared
-- membership in a rectangle of full-size extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last key tile (not the first): the tile's contribution is added into the accumulator, which holds what
    the point before left, and the accumulator is copied to the output block. -/
noncomputable def kernelRun1_C (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond1_0 i) (hc1 : cond1_1 i)
    (x0 : Vec F S1x1024x256 .bf16) (x1 : Vec F S1x512x256 .bf16) (x2 : Vec F S1x512x1024 .bf16) (xs0 : Vec F S1024x1024 .f32) :
    Σ' (L3 : List (View.Piece (Elt F) S1x1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__attn_kernel i arg3 harg3 arg4 harg4 arg5 harg5 arg6 harg6 arg7 harg7) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.R1.lean ====
/-
  The attention region, second part: what the accumulator and the output block hold after each grid point, the
  invariant that carries the accumulator from point to point, the region's proof data and the body obligation.

  After a point of the first key tile the accumulator holds zero plus that tile's contribution; after any other
  point it holds what the point before left plus the tile's contribution; at the last key tile the output block
  receives the accumulator. Between points the invariant holds the accumulator at exactly these contents, beside
  the scoped buffers this region never opens and the generator register.
-/
import proofs.«163519_j26173530702693_1_alg».proof.Proof.KI.R1RunA
import proofs.«163519_j26173530702693_1_alg».proof.Proof.KI.R1RunB
import proofs.«163519_j26173530702693_1_alg».proof.Proof.KI.R1RunC
-- membership in a rectangle of full-size extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- First key tile: nothing is stored into the output block (a placeholder nothing consults: the block is neither
    written back nor read at the next point). -/
def out1_A_3 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : cond1_0 i) (hc1 : ¬cond1_1 i)
    (x0 : Vec F S1x1024x256 .bf16) (x1 : Vec F S1x512x256 .bf16) (x2 : Vec F S1x512x1024 .bf16) : Vec F S1x1024x1024 .f32 :=
  VO1_3.read (Elt F) (VO1_3.writes (Elt F) VO1_3.junk (kernelRun1_A c i arg3 harg3 arg4 harg4 arg5 harg5 arg6 harg6 arg7 harg7 hc0 hc1 x0 x1 x2).1)
/-- First key tile: the pieces written into the accumulator cover it. -/
theorem scover1_A_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : cond1_0 i) (hc1 : ¬cond1_1 i)
    (x0 : Vec F S1x1024x256 .bf16) (x1 : Vec F S1x512x256 .bf16) (x2 : Vec F S1x512x1024 .bf16) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y
/-- What the first key tile leaves in the accumulator. -/
def sout1_A_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : cond1_0 i) (hc1 : ¬cond1_1 i)
    (x0 : Vec F S1x1024x256 .bf16) (x1 : Vec F S1x512x256 .bf16) (x2 : Vec F S1x512x1024 .bf16) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

def out1_B_3 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond1_0 i) (hc1 : ¬cond1_1 i)
    (x0 : Vec F S1x1024x256 .bf16) (x1 : Vec F S1x512x256 .bf16) (x2 : Vec F S1x512x1024 .bf16) (xs0 : Vec F S1024x1024 .f32) : Vec F S1x1024x1024 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond1_0 i) (hc1 : ¬cond1_1 i)
    (x0 : Vec F S1x1024x256 .bf16) (x1 : Vec F S1x512x256 .bf16) (x2 : Vec F S1x512x1024 .bf16) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y
def sout1_B_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond1_0 i) (hc1 : ¬cond1_1 i)
    (x0 : Vec F S1x1024x256 .bf16) (x1 : Vec F S1x512x256 .bf16) (x2 : Vec F S1x512x1024 .bf16) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

theorem cover1_C_3 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond1_0 i) (hc1 : cond1_1 i)
    (x0 : Vec F S1x1024x256 .bf16) (x1 : Vec F S1x512x256 .bf16) (x2 : Vec F S1x512x1024 .bf16) (xs0 : Vec F S1024x1024 .f32) (y : S1x1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1x1024x1024.size (by sl_kernel_rfl) y
/-- Last key tile: what is stored into the output block. -/
def out1_C_3 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond1_0 i) (hc1 : cond1_1 i)
    (x0 : Vec F S1x1024x256 .bf16) (x1 : Vec F S1x512x256 .bf16) (x2 : Vec F S1x512x1024 .bf16) (xs0 : Vec F S1024x1024 .f32) : Vec F S1x1024x1024 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond1_0 i) (hc1 : cond1_1 i)
    (x0 : Vec F S1x1024x256 .bf16) (x1 : Vec F S1x512x256 .bf16) (x2 : Vec F S1x512x1024 .bf16) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y
def sout1_C_0 (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond1_0 i) (hc1 : cond1_1 i)
    (x0 : Vec F S1x1024x256 .bf16) (x1 : Vec F S1x512x256 .bf16) (x2 : Vec F S1x512x1024 .bf16) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

section Region1

variable (V : (c : Dev nD) → (b : Ref sig .tc) → Buf (Elt F) ((c : Thread nD τ).loc b))

/-! ## Point by point -/

/-- What the output block's staging buffer and the accumulator hold after the body at position `n`: the case the
    closed forms select there, run at the point's memrefs and input blocks, over what the accumulator held after
    position `n - 1`. A point cannot be of the first and of the last key tile at once. -/
def outsAt1 (c : Dev nD) : (n : ℕ) → n < cfg1.N → Vec F S1x1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the region's entry the plain invariant (the accumulator at anything); afterwards the
    accumulator at what the point before left, the unopened scoped buffers, and the generator register. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The proof data -/

/-- The region's proof data on core `c`: the arrays as the region finds them; after the body at point `t` each
    input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Region1

end Cert.KernelIdeal.Hand

end
-- ==== Proof.KI.R1Body.lean ====
/-
  The attention region, third part: the body obligation. At a point the closed forms of the two conditions say
  which case the point is in; the invariant hands the body the accumulator at what the point before left (at
  anything before the first point), and takes it back at this point's contents.
-/
import proofs.«163519_j26173530702693_1_alg».proof.Proof.KI.R1
-- membership in a rectangle of full-size extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · by_cases h1 : t.val % 8 = 7
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the plain one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

theorem hout1 (c : Dev nD) : (dat1 V c).Φ (Fin.last cfg1.N) ⊢ Pipeline.ΦA spec1 c :=
  Phi_out1 V c _ (by rw [Fin.val_last]; have : cfg1.N = 128 := N_1; omega)

end Region1

end Cert.KernelIdeal.Hand

end
-- ==== Proof.KI.Run.lean ====
/-
  The kernel program's run. @main is four segments: three host reshapes of the inputs and of the biases, the
  projection call, three host reshapes of its results, the attention call. The buffer contents at each segment
  boundary are a fold from the launch memory: a host stretch applies its operations; a kernel call leaves each of
  its arrays at what its write-backs fold to and every other buffer as it found it. Every weakly fair execution
  terminates, and the final memory holds every unscoped buffer at the last fold: the arguments as launched, and
  the result array at what the attention call leaves.
-/
import proofs.«163519_j26173530702693_1_alg».proof.Proof.KI.R0
import proofs.«163519_j26173530702693_1_alg».proof.Proof.KI.R1Body
import proofs.«163519_j26173530702693_1_alg».proof.Proof.Gen.KernelIdeal.Regions
-- membership in a rectangle of full-size extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the projection call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A host stretch changes only the buffers its operations write. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := W1_of m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := W1_of m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := (W2_arr m ρ c 7).trans (((dat0 (V1 m ρ) c).arrAt_in 7 rfl _).trans (A_eq0 (V1 m ρ) c 7))
    _ = W0 m ρ c (Proc.devRef .tc main_arg7) := W1_of m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-- The result array ends at what the attention call leaves in it. -/
theorem W4_main_v10 (c : Dev nD) : W4 m ρ c (Proc.devRef .tc main_v10) = (dat1 (V3 m ρ) c).arrAt 3 cfg1.N :=
  W4_arr m ρ c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection call over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at `W3`, left at `W4`. Its
    invariant is entered at the plain one and gives the plain one back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds every unscoped buffer at the last fold `W4`; any post that follows from that holds. -/
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  run_all m ρ fun s h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩

/-- THE RUN WITH THE RESULT NAMED: the result array ends at what the attention call leaves, the arguments as launched. -/
theorem run_result : θ_run defs (onTc (τ := τ) (main (F := F))) ⟨m, fun _ => 0, ρ⟩ (fun r => ∀ c : Dev nD,
      r.2.mem ((c.tc : Thread nD τ).loc main_v10) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_all m ρ fun s h c =>
    ⟨(h c _ (mem_uc main_v10 (by decide))).trans (W4_main_v10 m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩

end Cert.KernelIdeal.Hand

end
-- ==== Proof.KI.Host.lean ====
import proofs.«163519_j26173530702693_1_alg».proof.Proof.KI.Run
import Idealize.ShloMosaic.Lib.Pipeline.Value
import Idealize.ShloMosaic.Lib.ValueIdx
import Idealize.ShloMosaic.Lib.ValueLayout

/-! # The host reshapes, read at an index

Between the launch and the first call the host flattens each input `[4, 4096, 1024]` to `[16384, 1024]` and each bias
`[n]` to one row `[1, n]`; between the two calls it unflattens each projection `[16384, n]` to `[4, 4096, n]`. A reshape
keeps the row-major position, so row `b · 4096 + s` of a flattened array is row `s` of batch `b`. -/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-! ## Before the first call -/

/-- The flattened input `main_v0` is `main_arg0` in row-major order. -/
theorem V1_v0_eq (c : Dev nD) :
    (V1 m ρ c main_v0 : S16384x1024.Idx → EReal)
      = shapeCast S16384x1024 (m ((c : Thread nD τ).loc main_arg0) : S4x4096x1024.Idx → EReal) shapeCasts_S4x4096x1024_S16384x1024 := by
  show StableHlo.after hostOps0 (W0 m ρ c) (Proc.devRef .tc main_v0) = _
  dsimp only [hostOps0]
  after_results
  rfl

/-- Row `b · 4096 + s` of `main_v0` is row `s` of batch `b` of `main_arg0`. -/
theorem V1_v0_apply (c : Dev nD) (b : Fin 4) (s : Fin 4096) (d : Fin 1024) :
    V1 m ρ c main_v0 (ix2 (⟨b.val * 4096 + s.val, by omega⟩ : Fin 16384) d) = m ((c : Thread nD τ).loc main_arg0) (ix3 b s d) :=
  (congrFun (V1_v0_eq m ρ c) _).trans (shapeCast_apply _ _ _ _ (by
    show (S4x4096x1024.rowMajor (ix3 b s d)).val = (S16384x1024.rowMajor (ix2 (⟨b.val * 4096 + s.val, by omega⟩ : Fin 16384) d)).val
    rw [Shape.rowMajor_val_three, Shape.rowMajor_val_two]; rfl))

/-- The flattened input `main_v1` is `main_arg1` in row-major order. -/
theorem V1_v1_eq (c : Dev nD) :
    (V1 m ρ c main_v1 : S16384x1024.Idx → EReal)
      = shapeCast S16384x1024 (m ((c : Thread nD τ).loc main_arg1) : S4x4096x1024.Idx → EReal) shapeCasts_S4x4096x1024_S16384x1024 := by
  show StableHlo.after hostOps0 (W0 m ρ c) (Proc.devRef .tc main_v1) = _
  dsimp only [hostOps0]
  after_results
  rfl

/-- Row `b · 4096 + s` of `main_v1` is row `s` of batch `b` of `main_arg1`. -/
theorem V1_v1_apply (c : Dev nD) (b : Fin 4) (s : Fin 4096) (d : Fin 1024) :
    V1 m ρ c main_v1 (ix2 (⟨b.val * 4096 + s.val, by omega⟩ : Fin 16384) d) = m ((c : Thread nD τ).loc main_arg1) (ix3 b s d) :=
  (congrFun (V1_v1_eq m ρ c) _).trans (shapeCast_apply _ _ _ _ (by
    show (S4x4096x1024.rowMajor (ix3 b s d)).val = (S16384x1024.rowMajor (ix2 (⟨b.val * 4096 + s.val, by omega⟩ : Fin 16384) d)).val
    rw [Shape.rowMajor_val_three, Shape.rowMajor_val_two]; rfl))

/-- The flattened input `main_v2` is `main_arg2` in row-major order. -/
theorem V1_v2_eq (c : Dev nD) :
    (V1 m ρ c main_v2 : S16384x1024.Idx → EReal)
      = shapeCast S16384x1024 (m ((c : Thread nD τ).loc main_arg2) : S4x4096x1024.Idx → EReal) shapeCasts_S4x4096x1024_S16384x1024 := by
  show StableHlo.after hostOps0 (W0 m ρ c) (Proc.devRef .tc main_v2) = _
  dsimp only [hostOps0]
  after_results
  rfl

/-- Row `b · 4096 + s` of `main_v2` is row `s` of batch `b` of `main_arg2`. -/
theorem V1_v2_apply (c : Dev nD) (b : Fin 4) (s : Fin 4096) (d : Fin 1024) :
    V1 m ρ c main_v2 (ix2 (⟨b.val * 4096 + s.val, by omega⟩ : Fin 16384) d) = m ((c : Thread nD τ).loc main_arg2) (ix3 b s d) :=
  (congrFun (V1_v2_eq m ρ c) _).trans (shapeCast_apply _ _ _ _ (by
    show (S4x4096x1024.rowMajor (ix3 b s d)).val = (S16384x1024.rowMajor (ix2 (⟨b.val * 4096 + s.val, by omega⟩ : Fin 16384) d)).val
    rw [Shape.rowMajor_val_three, Shape.rowMajor_val_two]; rfl))

/-- The bias row `main_v3` is `main_arg4` with a unit axis in front. -/
theorem V1_v3_eq (c : Dev nD) :
    (V1 m ρ c main_v3 : S1x256.Idx → EReal)
      = shapeCast S1x256 (m ((c : Thread nD τ).loc main_arg4) : S256.Idx → EReal) shapeCasts_S256_S1x256 := by
  show StableHlo.after hostOps0 (W0 m ρ c) (Proc.devRef .tc main_v3) = _
  dsimp only [hostOps0]
  after_results
  rfl

/-- Entry `e` of the one row of `main_v3` is entry `e` of `main_arg4`. -/
theorem V1_v3_apply (c : Dev nD) (e : Fin 256) :
    V1 m ρ c main_v3 (ix2 (0 : Fin 1) e) = m ((c : Thread nD τ).loc main_arg4) (ix1 e) :=
  (congrFun (V1_v3_eq m ρ c) _).trans (shapeCast_a_1a_apply _ _ 0 e)

/-- The bias row `main_v4` is `main_arg6` with a unit axis in front. -/
theorem V1_v4_eq (c : Dev nD) :
    (V1 m ρ c main_v4 : S1x256.Idx → EReal)
      = shapeCast S1x256 (m ((c : Thread nD τ).loc main_arg6) : S256.Idx → EReal) shapeCasts_S256_S1x256 := by
  show StableHlo.after hostOps0 (W0 m ρ c) (Proc.devRef .tc main_v4) = _
  dsimp only [hostOps0]
  after_results
  rfl

/-- Entry `e` of the one row of `main_v4` is entry `e` of `main_arg6`. -/
theorem V1_v4_apply (c : Dev nD) (e : Fin 256) :
    V1 m ρ c main_v4 (ix2 (0 : Fin 1) e) = m ((c : Thread nD τ).loc main_arg6) (ix1 e) :=
  (congrFun (V1_v4_eq m ρ c) _).trans (shapeCast_a_1a_apply _ _ 0 e)

/-- The bias row `main_v5` is `main_arg8` with a unit axis in front. -/
theorem V1_v5_eq (c : Dev nD) :
    (V1 m ρ c main_v5 : S1x1024.Idx → EReal)
      = shapeCast S1x1024 (m ((c : Thread nD τ).loc main_arg8) : S1024.Idx → EReal) shapeCasts_S1024_S1x1024 := by
  show StableHlo.after hostOps0 (W0 m ρ c) (Proc.devRef .tc main_v5) = _
  dsimp only [hostOps0]
  after_results
  rfl

/-- Entry `e` of the one row of `main_v5` is entry `e` of `main_arg8`. -/
theorem V1_v5_apply (c : Dev nD) (e : Fin 1024) :
    V1 m ρ c main_v5 (ix2 (0 : Fin 1) e) = m ((c : Thread nD τ).loc main_arg8) (ix1 e) :=
  (congrFun (V1_v5_eq m ρ c) _).trans (shapeCast_a_1a_apply _ _ 0 e)

/-- No host operation writes the weights `main_arg3`: the first call finds them as launched. -/
theorem V1_arg3 (c : Dev nD) : V1 m ρ c main_arg3 = m ((c : Thread nD τ).loc main_arg3) :=
  (W1_of m ρ c main_arg3 (by decide)).trans rfl

/-- No host operation writes the weights `main_arg5`: the first call finds them as launched. -/
theorem V1_arg5 (c : Dev nD) : V1 m ρ c main_arg5 = m ((c : Thread nD τ).loc main_arg5) :=
  (W1_of m ρ c main_arg5 (by decide)).trans rfl

/-- No host operation writes the weights `main_arg7`: the first call finds them as launched. -/
theorem V1_arg7 (c : Dev nD) : V1 m ρ c main_arg7 = m ((c : Thread nD τ).loc main_arg7) :=
  (W1_of m ρ c main_arg7 (by decide)).trans rfl

/-! ## Between the two calls -/

/-- The unflattened projection `main_v7` is `main_v6_0`, as the first call leaves it, in row-major order. -/
theorem V3_v7_eq (c : Dev nD) :
    (V3 m ρ c main_v7 : S4x4096x256.Idx → EReal)
      = shapeCast S4x4096x256 (W2 m ρ c (Proc.devRef .tc main_v6_0) : S16384x256.Idx → EReal) shapeCasts_S16384x256_S4x4096x256 := by
  show StableHlo.after hostOps1 (W2 m ρ c) (Proc.devRef .tc main_v7) = _
  dsimp only [hostOps1]
  after_results
  rfl

/-- Row `s` of batch `b` of `main_v7` is row `b · 4096 + s` of `main_v6_0`. -/
theorem V3_v7_apply (c : Dev nD) (b : Fin 4) (s : Fin 4096) (e : Fin 256) :
    V3 m ρ c main_v7 (ix3 b s e) = W2 m ρ c (Proc.devRef .tc main_v6_0) (ix2 (⟨b.val * 4096 + s.val, by omega⟩ : Fin 16384) e) :=
  (congrFun (V3_v7_eq m ρ c) _).trans (shapeCast_apply _ _ _ _ (by
    show (S16384x256.rowMajor (ix2 (⟨b.val * 4096 + s.val, by omega⟩ : Fin 16384) e)).val = (S4x4096x256.rowMajor (ix3 b s e)).val
    rw [Shape.rowMajor_val_three, Shape.rowMajor_val_two]; rfl))

/-- The unflattened projection `main_v8` is `main_v6_1`, as the first call leaves it, in row-major order. -/
theorem V3_v8_eq (c : Dev nD) :
    (V3 m ρ c main_v8 : S4x4096x256.Idx → EReal)
      = shapeCast S4x4096x256 (W2 m ρ c (Proc.devRef .tc main_v6_1) : S16384x256.Idx → EReal) shapeCasts_S16384x256_S4x4096x256 := by
  show StableHlo.after hostOps1 (W2 m ρ c) (Proc.devRef .tc main_v8) = _
  dsimp only [hostOps1]
  after_results
  rfl

/-- Row `s` of batch `b` of `main_v8` is row `b · 4096 + s` of `main_v6_1`. -/
theorem V3_v8_apply (c : Dev nD) (b : Fin 4) (s : Fin 4096) (e : Fin 256) :
    V3 m ρ c main_v8 (ix3 b s e) = W2 m ρ c (Proc.devRef .tc main_v6_1) (ix2 (⟨b.val * 4096 + s.val, by omega⟩ : Fin 16384) e) :=
  (congrFun (V3_v8_eq m ρ c) _).trans (shapeCast_apply _ _ _ _ (by
    show (S16384x256.rowMajor (ix2 (⟨b.val * 4096 + s.val, by omega⟩ : Fin 16384) e)).val = (S4x4096x256.rowMajor (ix3 b s e)).val
    rw [Shape.rowMajor_val_three, Shape.rowMajor_val_two]; rfl))

/-- The unflattened projection `main_v9` is `main_v6_2`, as the first call leaves it, in row-major order. -/
theorem V3_v9_eq (c : Dev nD) :
    (V3 m ρ c main_v9 : S4x4096x1024.Idx → EReal)
      = shapeCast S4x4096x1024 (W2 m ρ c (Proc.devRef .tc main_v6_2) : S16384x1024.Idx → EReal) shapeCasts_S16384x1024_S4x4096x1024 := by
  show StableHlo.after hostOps1 (W2 m ρ c) (Proc.devRef .tc main_v9) = _
  dsimp only [hostOps1]
  after_results
  rfl

/-- Row `s` of batch `b` of `main_v9` is row `b · 4096 + s` of `main_v6_2`. -/
theorem V3_v9_apply (c : Dev nD) (b : Fin 4) (s : Fin 4096) (e : Fin 1024) :
    V3 m ρ c main_v9 (ix3 b s e) = W2 m ρ c (Proc.devRef .tc main_v6_2) (ix2 (⟨b.val * 4096 + s.val, by omega⟩ : Fin 16384) e) :=
  (congrFun (V3_v9_eq m ρ c) _).trans (shapeCast_apply _ _ _ _ (by
    show (S16384x1024.rowMajor (ix2 (⟨b.val * 4096 + s.val, by omega⟩ : Fin 16384) e)).val = (S4x4096x1024.rowMajor (ix3 b s e)).val
    rw [Shape.rowMajor_val_three, Shape.rowMajor_val_two]; rfl))

end Cert.KernelIdeal.HandValue

end
-- ==== Proof.KI.R0Value.lean ====
import proofs.«163519_j26173530702693_1_alg».proof.Proof.KI.R0
import Idealize.ShloMosaic.Lib.Pipeline.Value
import Idealize.ShloMosaic.Lib.ValueIdx
import Idealize.ShloMosaic.Lib.ValueLayout
import Idealize.ShloMosaic.PureOps.Ideal.Laws

/-! # The three projections, read: what the first region leaves in its output arrays

Over the extended reals a change of float format is the identity and a matrix product into a zero accumulator is the
plain sum over the contracted axis. So each output array of the first region ends holding, at row `r` and column `e`,
the inner product of row `r` of the input with row `e` of the weights, plus entry `e` of the bias: block `t` of 512
rows is written by grid point `t`, and the 32 blocks tile the 16384 rows. -/

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

/-- Rows of `X` against rows of `W`, plus the bias row: entry `(r, e)` is `∑ d, X[r,d] · W[e,d] + B[0,e]`. -/
def projRows {E : Nat} (X : (⟨2, ![16384, 1024]⟩ : Shape).Idx → EReal) (W : (⟨2, ![E, 1024]⟩ : Shape).Idx → EReal)
    (B : (⟨2, ![1, E]⟩ : Shape).Idx → EReal) : (⟨2, ![16384, E]⟩ : Shape).Idx → EReal :=
  fun y => (∑ d : Fin 1024, X (ValueIdx.ix2 (y 0) d) * W (ValueIdx.ix2 (y 1) d)) + B (ValueIdx.ix2 0 (y 1))

theorem hz : (![0, 0] : Fin 2 → Nat) = fun _ => 0 := funext fun a => by fin_cases a <;> rfl

/-! ## The body's arithmetic at an index -/

/-- The operand indices of the product: the row of the left operand is the output's row, the column of the right
    operand is the output's column, and both contracted coordinates are the contraction index. -/
theorem lhs256_0 (i : S512x256.Idx) (k : dot_S512x1024_S1024x256_S512x256_1_0_0_1_n_n.contr.Idx) : (dot_S512x1024_S1024x256_S512x256_1_0_0_1_n_n.lhsIdx i k 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem lhs256_1 (i : S512x256.Idx) (k : dot_S512x1024_S1024x256_S512x256_1_0_0_1_n_n.contr.Idx) : (dot_S512x1024_S1024x256_S512x256_1_0_0_1_n_n.lhsIdx i k 1).val = (k ⟨0, by decide⟩).val :=
  dot_S512x1024_S1024x256_S512x256_1_0_0_1_n_n.lhsIdx_val_of_single rfl i k
theorem rhs256_0 (i : S512x256.Idx) (k : dot_S512x1024_S1024x256_S512x256_1_0_0_1_n_n.contr.Idx) : (dot_S512x1024_S1024x256_S512x256_1_0_0_1_n_n.rhsIdx i k 0).val = (k ⟨0, by decide⟩).val :=
  dot_S512x1024_S1024x256_S512x256_1_0_0_1_n_n.rhsIdx_val_of_single rfl i k
theorem rhs256_1 (i : S512x256.Idx) (k : dot_S512x1024_S1024x256_S512x256_1_0_0_1_n_n.contr.Idx) : (dot_S512x1024_S1024x256_S512x256_1_0_0_1_n_n.rhsIdx i k 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- The product of a rounded row block with the transposed rounded weights, into the zero accumulator, at `(p, q)`:
    the inner product of row `p` of the block with row `q` of the weights. -/
theorem mm256 (x : Vec Ideal S512x1024 .f32) (w : Vec Ideal S256x1024 .f32) (h1 : S512x1024.ShapeCasts S512x1024)
    (h2 : FTy.bf16.bits < FTy.f32.bits) (h4 : S256x1024.Transposes [1, 0] S1024x256) (p : Fin 512) (q : Fin 256) :
    matmul dot_S512x1024_S1024x256_S512x256_1_0_0_1_n_n none (truncf .bf16 (shapeCast S512x1024 x h1) h2)
        (transpose S1024x256 [1, 0] (truncf .bf16 w h2) h4) (constant (F := Ideal) S512x256 .f32 0x00000000#32) (ix2 p q)
      = ∑ d : Fin 1024, x (ix2 p d) * w (ix2 q d) := by
  rw [shapeCast_self x h1]
  simp only [matmul]
  rw [Ideal.matmul_constant_zero_apply, ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 p q) ((contrEquiv1 dot_S512x1024_S1024x256_S512x256_1_0_0_1_n_n 1024 rfl rfl).symm k) = ix2 p k := funext fun a => Fin.ext (by
    match a with
    | ⟨0, _⟩ => exact lhs256_0 _ _
    | ⟨1, _⟩ => exact (lhs256_1 _ _).trans hk)
  have er : dot_S512x1024_S1024x256_S512x256_1_0_0_1_n_n.rhsIdx (ix2 p q) ((contrEquiv1 dot_S512x1024_S1024x256_S512x256_1_0_0_1_n_n 1024 rfl rfl).symm k) = ix2 k q := funext fun a => Fin.ext (by
    match a with
    | ⟨0, _⟩ => exact (rhs256_0 _ _).trans hk
    | ⟨1, _⟩ => exact rhs256_1 _ _)
  rw [el, er, transpose_ix2_apply]
  rfl

/-- The operand indices of the product: the row of the left operand is the output's row, the column of the right
    operand is the output's column, and both contracted coordinates are the contraction index. -/
theorem lhs1024_0 (i : S512x1024.Idx) (k : dot_S512x1024_S1024x1024_S512x1024_1_0_0_1_n_n.contr.Idx) : (dot_S512x1024_S1024x1024_S512x1024_1_0_0_1_n_n.lhsIdx i k 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs1024_1 (i : S512x1024.Idx) (k : dot_S512x1024_S1024x1024_S512x1024_1_0_0_1_n_n.contr.Idx) : (dot_S512x1024_S1024x1024_S512x1024_1_0_0_1_n_n.lhsIdx i k 1).val = (k ⟨0, by decide⟩).val :=
  dot_S512x1024_S1024x1024_S512x1024_1_0_0_1_n_n.lhsIdx_val_of_single rfl i k
theorem rhs1024_0 (i : S512x1024.Idx) (k : dot_S512x1024_S1024x1024_S512x1024_1_0_0_1_n_n.contr.Idx) : (dot_S512x1024_S1024x1024_S512x1024_1_0_0_1_n_n.rhsIdx i k 0).val = (k ⟨0, by decide⟩).val :=
  dot_S512x1024_S1024x1024_S512x1024_1_0_0_1_n_n.rhsIdx_val_of_single rfl i k
theorem rhs1024_1 (i : S512x1024.Idx) (k : dot_S512x1024_S1024x1024_S512x1024_1_0_0_1_n_n.contr.Idx) : (dot_S512x1024_S1024x1024_S512x1024_1_0_0_1_n_n.rhsIdx i k 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of a rounded row block with the transposed rounded weights, into the zero accumulator, at `(p, q)`:
    the inner product of row `p` of the block with row `q` of the weights. -/
theorem mm1024 (x : Vec Ideal S512x1024 .f32) (w : Vec Ideal S1024x1024 .f32) (h1 : S512x1024.ShapeCasts S512x1024)
    (h2 : FTy.bf16.bits < FTy.f32.bits) (h4 : S1024x1024.Transposes [1, 0] S1024x1024) (p : Fin 512) (q : Fin 1024) :
    matmul dot_S512x1024_S1024x1024_S512x1024_1_0_0_1_n_n none (truncf .bf16 (shapeCast S512x1024 x h1) h2)
        (transpose S1024x1024 [1, 0] (truncf .bf16 w h2) h4) (constant (F := Ideal) S512x1024 .f32 0x00000000#32) (ix2 p q)
      = ∑ d : Fin 1024, x (ix2 p d) * w (ix2 q d) := by
  rw [shapeCast_self x h1]
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs1024_0 _ _
    | ⟨1, _⟩ => exact (lhs1024_1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs1024_0 _ _).trans hk
    | ⟨1, _⟩ => exact rhs1024_1 _ _)
  rw [el, er, transpose_ix2_apply]
  rfl

/-- The first projection's payload at `(p, q)`. -/
theorem pay_q_apply (x0 : Vec Ideal S512x1024 .f32) (x3 : Vec Ideal S256x1024 .f32) (x4 : Vec Ideal S1x256 .f32)
    (p : Fin 512) (q : Fin 256) :
    k0_pay5 x0 x3 x4 (ix2 p q) = (∑ d : Fin 1024, x0 (ix2 p d) * x3 (ix2 q d)) + x4 (ix2 0 q) := by
  unfold k0_pay5
  dsimp only
  refine congrArg₂ (· + ·) (mm256 x0 x3 _ _ _ p q) ?_
  refine (broadcastTo_1b_ab_apply _ _ p q).trans ?_
  rw [shapeCast_self]

/-- The second projection's payload at `(p, q)`. -/
theorem pay_k_apply (x1 : Vec Ideal S512x1024 .f32) (x5 : Vec Ideal S256x1024 .f32) (x6 : Vec Ideal S1x256 .f32)
    (p : Fin 512) (q : Fin 256) :
    k0_pay1 (k0_pay3 x1 x5 x6) (ix2 p q) = (∑ d : Fin 1024, x1 (ix2 p d) * x5 (ix2 q d)) + x6 (ix2 0 q) := by
  unfold k0_pay1 k0_pay3
  dsimp only
  refine congrArg₂ (· + ·) (mm256 x1 x5 _ _ _ p q) ?_
  refine (broadcastTo_1b_ab_apply _ _ p q).trans ?_
  rw [shapeCast_self]

/-- The third projection's payload at `(p, q)`, at the full width. -/
theorem pay_v_apply (x2 : Vec Ideal S512x1024 .f32) (x7 : Vec Ideal S1024x1024 .f32) (x8 : Vec Ideal S1x1024 .f32)
    (p : Fin 512) (q : Fin 1024) :
    k0_pay2 (k0_pay4 x2 x7 x8) (ix2 p q) = (∑ d : Fin 1024, x2 (ix2 p d) * x7 (ix2 q d)) + x8 (ix2 0 q) := by
  unfold k0_pay2 k0_pay4
  dsimp only
  refine congrArg₂ (· + ·) (mm1024 x2 x7 _ _ _ p q) ?_
  refine (broadcastTo_1b_ab_apply _ _ p q).trans ?_
  rw [shapeCast_self]

section Region
variable (V : (c : Dev nD) → (b : Ref sig .tc) → Buf (Elt Ideal) ((c : Thread nD τ).loc b))

/-! ## The windows' blocks as parts of their arrays -/

/-- The block indices, decided over the 32 grid points: a row-block window (the three inputs and the three outputs)
    is at block `(t, 0)` at point `t`; the weights and biases are whole-array blocks at `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- Input window 0's block at point `t` is rows `512 t … 512 t + 511` of its array. -/
theorem rows0_apply (c : Dev nD) (t : Fin cfg0.N) (p : Fin 512) (d : Fin 1024) (r : Fin 16384)
    (hr : r.val = t.val * 512 + p.val) :
    (iblk0 V c 0 t : Vec Ideal S512x1024 .f32) (ix2 p d) = (V c main_v0 : S16384x1024.Idx → EReal) (ix2 r d) := by
  have hi := (idx_facts t).1
  unfold iblk0
  rw [View.read_apply]
  show V c main_v0 _ = V c main_v0 _
  refine congrArg _ (funext fun a => Fin.ext ?_)
  match a with
  | ⟨0, _⟩ => show win0_0.index t (0 : Fin 2) * 512 + 1 * p.val = r.val; rw [hi.1, hr]; omega
  | ⟨1, _⟩ => show win0_0.index t (1 : Fin 2) * 1024 + 1 * d.val = d.val; rw [hi.2]; omega

/-- Input window 1's block at point `t` is rows `512 t … 512 t + 511` of its array. -/
theorem rows1_apply (c : Dev nD) (t : Fin cfg0.N) (p : Fin 512) (d : Fin 1024) (r : Fin 16384)
    (hr : r.val = t.val * 512 + p.val) :
    (iblk0 V c 1 t : Vec Ideal S512x1024 .f32) (ix2 p d) = (V c main_v1 : S16384x1024.Idx → EReal) (ix2 r d) := by
  have hi := (idx_facts t).2.1
  unfold iblk0
  rw [View.read_apply]
  show V c main_v1 _ = V c main_v1 _
  refine congrArg _ (funext fun a => Fin.ext ?_)
  match a with
  | ⟨0, _⟩ => show win0_1.index t (0 : Fin 2) * 512 + 1 * p.val = r.val; rw [hi.1, hr]; omega
  | ⟨1, _⟩ => show win0_1.index t (1 : Fin 2) * 1024 + 1 * d.val = d.val; rw [hi.2]; omega

/-- Input window 2's block at point `t` is rows `512 t … 512 t + 511` of its array. -/
theorem rows2_apply (c : Dev nD) (t : Fin cfg0.N) (p : Fin 512) (d : Fin 1024) (r : Fin 16384)
    (hr : r.val = t.val * 512 + p.val) :
    (iblk0 V c 2 t : Vec Ideal S512x1024 .f32) (ix2 p d) = (V c main_v2 : S16384x1024.Idx → EReal) (ix2 r d) := by
  have hi := (idx_facts t).2.2.1
  unfold iblk0
  rw [View.read_apply]
  show V c main_v2 _ = V c main_v2 _
  refine congrArg _ (funext fun a => Fin.ext ?_)
  match a with
  | ⟨0, _⟩ => show win0_2.index t (0 : Fin 2) * 512 + 1 * p.val = r.val; rw [hi.1, hr]; omega
  | ⟨1, _⟩ => show win0_2.index t (1 : Fin 2) * 1024 + 1 * d.val = d.val; rw [hi.2]; omega

/-- Window 3's block is its whole array, at every point. -/
theorem whole3_apply (c : Dev nD) (t : Fin cfg0.N) (q : Fin 256) (d : Fin 1024) :
    (iblk0 V c 3 t : Vec Ideal S256x1024 .f32) (ix2 q d) = (V c main_arg3 : S256x1024.Idx → EReal) (ix2 q d) := by
  have hi := (idx_facts t).2.2.2.1
  unfold iblk0
  rw [View.read_apply]
  show V c main_arg3 _ = V c main_arg3 _
  refine congrArg _ (funext fun a => Fin.ext ?_)
  match a with
  | ⟨0, _⟩ => show win0_3.index t (0 : Fin 2) * 256 + 1 * q.val = q.val; rw [hi.1]; omega
  | ⟨1, _⟩ => show win0_3.index t (1 : Fin 2) * 1024 + 1 * d.val = d.val; rw [hi.2]; omega

/-- Window 4's block is its whole one-row array, at every point. -/
theorem whole4_apply (c : Dev nD) (t : Fin cfg0.N) (q : Fin 256) :
    (iblk0 V c 4 t : Vec Ideal S1x256 .f32) (ix2 (0 : Fin 1) q) = (V c main_v3 : S1x256.Idx → EReal) (ix2 (0 : Fin 1) q) := by
  have hi := (idx_facts t).2.2.2.2.1
  unfold iblk0
  rw [View.read_apply]
  show V c main_v3 _ = V c main_v3 _
  refine congrArg _ (funext fun a => Fin.ext ?_)
  match a with
  | ⟨0, _⟩ => show win0_4.index t (0 : Fin 2) * 1 + 1 * 0 = 0; rw [hi.1]
  | ⟨1, _⟩ => show win0_4.index t (1 : Fin 2) * 256 + 1 * q.val = q.val; rw [hi.2]; omega

/-- Window 5's block is its whole array, at every point. -/
theorem whole5_apply (c : Dev nD) (t : Fin cfg0.N) (q : Fin 256) (d : Fin 1024) :
    (iblk0 V c 5 t : Vec Ideal S256x1024 .f32) (ix2 q d) = (V c main_arg5 : S256x1024.Idx → EReal) (ix2 q d) := by
  have hi := (idx_facts t).2.2.2.2.2.1
  unfold iblk0
  rw [View.read_apply]
  show V c main_arg5 _ = V c main_arg5 _
  refine congrArg _ (funext fun a => Fin.ext ?_)
  match a with
  | ⟨0, _⟩ => show win0_5.index t (0 : Fin 2) * 256 + 1 * q.val = q.val; rw [hi.1]; omega
  | ⟨1, _⟩ => show win0_5.index t (1 : Fin 2) * 1024 + 1 * d.val = d.val; rw [hi.2]; omega

/-- Window 6's block is its whole one-row array, at every point. -/
theorem whole6_apply (c : Dev nD) (t : Fin cfg0.N) (q : Fin 256) :
    (iblk0 V c 6 t : Vec Ideal S1x256 .f32) (ix2 (0 : Fin 1) q) = (V c main_v4 : S1x256.Idx → EReal) (ix2 (0 : Fin 1) q) := by
  have hi := (idx_facts t).2.2.2.2.2.2.1
  unfold iblk0
  rw [View.read_apply]
  show V c main_v4 _ = V c main_v4 _
  refine congrArg _ (funext fun a => Fin.ext ?_)
  match a with
  | ⟨0, _⟩ => show win0_6.index t (0 : Fin 2) * 1 + 1 * 0 = 0; rw [hi.1]
  | ⟨1, _⟩ => show win0_6.index t (1 : Fin 2) * 256 + 1 * q.val = q.val; rw [hi.2]; omega

/-- Window 7's block is its whole array, at every point. -/
theorem whole7_apply (c : Dev nD) (t : Fin cfg0.N) (q : Fin 1024) (d : Fin 1024) :
    (iblk0 V c 7 t : Vec Ideal S1024x1024 .f32) (ix2 q d) = (V c main_arg7 : S1024x1024.Idx → EReal) (ix2 q d) := by
  have hi := (idx_facts t).2.2.2.2.2.2.2.1
  unfold iblk0
  rw [View.read_apply]
  show V c main_arg7 _ = V c main_arg7 _
  refine congrArg _ (funext fun a => Fin.ext ?_)
  match a with
  | ⟨0, _⟩ => show win0_7.index t (0 : Fin 2) * 1024 + 1 * q.val = q.val; rw [hi.1]; omega
  | ⟨1, _⟩ => show win0_7.index t (1 : Fin 2) * 1024 + 1 * d.val = d.val; rw [hi.2]; omega

/-- Window 8's block is its whole one-row array, at every point. -/
theorem whole8_apply (c : Dev nD) (t : Fin cfg0.N) (q : Fin 1024) :
    (iblk0 V c 8 t : Vec Ideal S1x1024 .f32) (ix2 (0 : Fin 1) q) = (V c main_v5 : S1x1024.Idx → EReal) (ix2 (0 : Fin 1) q) := by
  have hi := (idx_facts t).2.2.2.2.2.2.2.2.1
  unfold iblk0
  rw [View.read_apply]
  show V c main_v5 _ = V c main_v5 _
  refine congrArg _ (funext fun a => Fin.ext ?_)
  match a with
  | ⟨0, _⟩ => show win0_8.index t (0 : Fin 2) * 1 + 1 * 0 = 0; rw [hi.1]
  | ⟨1, _⟩ => show win0_8.index t (1 : Fin 2) * 1024 + 1 * q.val = q.val; rw [hi.2]; omega

/-! ## Output window 9 -/

/-- What point `t` writes back is block `t` of the projection of the arrays as the region finds them. -/
theorem flushed9_eq (c : Dev nD) (t : Fin cfg0.N) :
    (dat0 V c).flushed 9 t = ((cfg0.win 9).blk t).view.read (Elt Ideal) (projRows (V c main_v0) (V c main_arg3) (V c main_v3)) := by
  show (cfg0.win 9).cut (grid0.coords t) ((dat0 V c).after 9 t) = _
  rw [after0_9]
  unfold out0_9
  rw [View.canon_unit_zero hz]
  simp only [View.ld_unit_zero (S := S512x1024) hz, View.ld_unit_zero (S := S256x1024) hz, View.ld_unit_zero (S := S1x256) hz]
  have hi := (idx_facts t).2.2.2.2.2.2.2.2.2.1
  funext j
  obtain ⟨p, q, rfl⟩ : ∃ (p : Fin 512) (q : Fin 256), j = ix2 p q := ⟨j 0, j 1, eq_ix2 j⟩
  refine (pay_q_apply (iblk0 V c 0 t) (iblk0 V c 3 t) (iblk0 V c 4 t) p q).trans ?_
  rw [View.read_apply]
  have e0 : ((((cfg0.win 9).blk t).view.emb (ix2 p q)) (0 : Fin 2)).val = t.val * 512 + p.val := by
    show win0_9.index t (0 : Fin 2) * 512 + 1 * p.val = _; rw [hi.1]; omega
  have e1 : ((((cfg0.win 9).blk t).view.emb (ix2 p q)) (1 : Fin 2)).val = q.val := by
    show win0_9.index t (1 : Fin 2) * 256 + 1 * q.val = _; rw [hi.2]; omega
  unfold projRows
  refine congrArg₂ (· + ·) (Finset.sum_congr rfl fun d _ => congrArg₂ (· * ·) ?_ ?_) ?_
  · exact rows0_apply V c t p d _ e0
  · refine (whole3_apply V c t q d).trans (congrArg _ (funext fun a => Fin.ext ?_))
    match a with
    | ⟨0, _⟩ => exact e1.symm
    | ⟨1, _⟩ => rfl
  · refine (whole4_apply V c t q).trans (congrArg _ (funext fun a => Fin.ext ?_))
    match a with
    | ⟨0, _⟩ => rfl
    | ⟨1, _⟩ => exact e1.symm

/-- Row `r` of the output is in the block of point `r / 512`: the 32 blocks tile the array. -/
theorem cover9 (i : S16384x256.Idx) :
    ∃ t : Fin cfg0.N, (cfg0.win 9).flush t = true ∧ i ∈ ((cfg0.win 9).blk t).view.set := by
  have h0 : (i 0).val < 16384 := (i 0).isLt
  have h1 : (i 1).val < 256 := (i 1).isLt
  have hN : cfg0.N = 32 := N_0
  have hlt : (i 0).val / 512 < cfg0.N := by rw [hN]; omega
  refine ⟨⟨(i 0).val / 512, hlt⟩, flush0_9 _, ?_⟩
  have hi := (idx_facts ⟨(i 0).val / 512, hlt⟩).2.2.2.2.2.2.2.2.2.1
  show i ∈ ((View.whole main_v6_0).slice (win0_9.rect ⟨(i 0).val / 512, hlt⟩)).set
  rw [View.set_slice_whole, Rect.mem_set_unit]
  intro a
  match a with
  | ⟨0, _⟩ =>
    show win0_9.index ⟨(i 0).val / 512, hlt⟩ (0 : Fin 2) * 512 ≤ (i 0).val ∧ (i 0).val < win0_9.index ⟨(i 0).val / 512, hlt⟩ (0 : Fin 2) * 512 + 512
    rw [hi.1]; show (i 0).val / 512 * 512 ≤ (i 0).val ∧ (i 0).val < (i 0).val / 512 * 512 + 512; omega
  | ⟨1, _⟩ =>
    show win0_9.index ⟨(i 0).val / 512, hlt⟩ (1 : Fin 2) * 256 ≤ (i 1).val ∧ (i 1).val < win0_9.index ⟨(i 0).val / 512, hlt⟩ (1 : Fin 2) * 256 + 256
    rw [hi.2]; omega

/-- The array after the region's 32 write-backs: the projection, whole. -/
theorem arrAt0_9 (c : Dev nD) : (dat0 V c).arrAt 9 cfg0.N = projRows (V c main_v0) (V c main_arg3) (V c main_v3) :=
  (dat0 V c).arrAt_eq_of_cover 9 (projRows (V c main_v0) (V c main_arg3) (V c main_v3)) (fun t _ => flushed9_eq V c t) (cover9)

/-! ## Output window 10 -/

/-- What point `t` writes back is block `t` of the projection of the arrays as the region finds them. -/
theorem flushed10_eq (c : Dev nD) (t : Fin cfg0.N) :
    (dat0 V c).flushed 10 t = ((cfg0.win 10).blk t).view.read (Elt Ideal) (projRows (V c main_v1) (V c main_arg5) (V c main_v4)) := by
  show (cfg0.win 10).cut (grid0.coords t) ((dat0 V c).after 10 t) = _
  rw [after0_10]
  unfold out0_10
  rw [View.canon_unit_zero hz]
  simp only [View.ld_unit_zero (S := S512x1024) hz, View.ld_unit_zero (S := S256x1024) hz, View.ld_unit_zero (S := S1x256) hz]
  have hi := (idx_facts t).2.2.2.2.2.2.2.2.2.2.1
  funext j
  obtain ⟨p, q, rfl⟩ : ∃ (p : Fin 512) (q : Fin 256), j = ix2 p q := ⟨j 0, j 1, eq_ix2 j⟩
  refine (pay_k_apply (iblk0 V c 1 t) (iblk0 V c 5 t) (iblk0 V c 6 t) p q).trans ?_
  rw [View.read_apply]
  have e0 : ((((cfg0.win 10).blk t).view.emb (ix2 p q)) (0 : Fin 2)).val = t.val * 512 + p.val := by
    show win0_10.index t (0 : Fin 2) * 512 + 1 * p.val = _; rw [hi.1]; omega
  have e1 : ((((cfg0.win 10).blk t).view.emb (ix2 p q)) (1 : Fin 2)).val = q.val := by
    show win0_10.index t (1 : Fin 2) * 256 + 1 * q.val = _; rw [hi.2]; omega
  unfold projRows
  refine congrArg₂ (· + ·) (Finset.sum_congr rfl fun d _ => congrArg₂ (· * ·) ?_ ?_) ?_
  · exact rows1_apply V c t p d _ e0
  · refine (whole5_apply V c t q d).trans (congrArg _ (funext fun a => Fin.ext ?_))
    match a with
    | ⟨0, _⟩ => exact e1.symm
    | ⟨1, _⟩ => rfl
  · refine (whole6_apply V c t q).trans (congrArg _ (funext fun a => Fin.ext ?_))
    match a with
    | ⟨0, _⟩ => rfl
    | ⟨1, _⟩ => exact e1.symm

/-- Row `r` of the output is in the block of point `r / 512`: the 32 blocks tile the array. -/
theorem cover10 (i : S16384x256.Idx) :
    ∃ t : Fin cfg0.N, (cfg0.win 10).flush t = true ∧ i ∈ ((cfg0.win 10).blk t).view.set := by
  have h0 : (i 0).val < 16384 := (i 0).isLt
  have h1 : (i 1).val < 256 := (i 1).isLt
  have hN : cfg0.N = 32 := N_0
  have hlt : (i 0).val / 512 < cfg0.N := by rw [hN]; omega
  refine ⟨⟨(i 0).val / 512, hlt⟩, flush0_10 _, ?_⟩
  have hi := (idx_facts ⟨(i 0).val / 512, hlt⟩).2.2.2.2.2.2.2.2.2.2.1
  show i ∈ ((View.whole main_v6_1).slice (win0_10.rect ⟨(i 0).val / 512, hlt⟩)).set
  rw [View.set_slice_whole, Rect.mem_set_unit]
  intro a
  match a with
  | ⟨0, _⟩ =>
    show win0_10.index ⟨(i 0).val / 512, hlt⟩ (0 : Fin 2) * 512 ≤ (i 0).val ∧ (i 0).val < win0_10.index ⟨(i 0).val / 512, hlt⟩ (0 : Fin 2) * 512 + 512
    rw [hi.1]; show (i 0).val / 512 * 512 ≤ (i 0).val ∧ (i 0).val < (i 0).val / 512 * 512 + 512; omega
  | ⟨1, _⟩ =>
    show win0_10.index ⟨(i 0).val / 512, hlt⟩ (1 : Fin 2) * 256 ≤ (i 1).val ∧ (i 1).val < win0_10.index ⟨(i 0).val / 512, hlt⟩ (1 : Fin 2) * 256 + 256
    rw [hi.2]; omega

/-- The array after the region's 32 write-backs: the projection, whole. -/
theorem arrAt0_10 (c : Dev nD) : (dat0 V c).arrAt 10 cfg0.N = projRows (V c main_v1) (V c main_arg5) (V c main_v4) :=
  (dat0 V c).arrAt_eq_of_cover 10 (projRows (V c main_v1) (V c main_arg5) (V c main_v4)) (fun t _ => flushed10_eq V c t) (cover10)

/-! ## Output window 11 -/

/-- What point `t` writes back is block `t` of the projection of the arrays as the region finds them. -/
theorem flushed11_eq (c : Dev nD) (t : Fin cfg0.N) :
    (dat0 V c).flushed 11 t = ((cfg0.win 11).blk t).view.read (Elt Ideal) (projRows (V c main_v2) (V c main_arg7) (V c main_v5)) := by
  show (cfg0.win 11).cut (grid0.coords t) ((dat0 V c).after 11 t) = _
  rw [after0_11]
  unfold out0_11
  rw [View.canon_unit_zero hz]
  simp only [View.ld_unit_zero (S := S512x1024) hz, View.ld_unit_zero (S := S1024x1024) hz, View.ld_unit_zero (S := S1x1024) hz]
  have hi := (idx_facts t).2.2.2.2.2.2.2.2.2.2.2
  funext j
  obtain ⟨p, q, rfl⟩ : ∃ (p : Fin 512) (q : Fin 1024), j = ix2 p q := ⟨j 0, j 1, eq_ix2 j⟩
  refine (pay_v_apply (iblk0 V c 2 t) (iblk0 V c 7 t) (iblk0 V c 8 t) p q).trans ?_
  rw [View.read_apply]
  have e0 : ((((cfg0.win 11).blk t).view.emb (ix2 p q)) (0 : Fin 2)).val = t.val * 512 + p.val := by
    show win0_11.index t (0 : Fin 2) * 512 + 1 * p.val = _; rw [hi.1]; omega
  have e1 : ((((cfg0.win 11).blk t).view.emb (ix2 p q)) (1 : Fin 2)).val = q.val := by
    show win0_11.index t (1 : Fin 2) * 1024 + 1 * q.val = _; rw [hi.2]; omega
  unfold projRows
  refine congrArg₂ (· + ·) (Finset.sum_congr rfl fun d _ => congrArg₂ (· * ·) ?_ ?_) ?_
  · exact rows2_apply V c t p d _ e0
  · refine (whole7_apply V c t q d).trans (congrArg _ (funext fun a => Fin.ext ?_))
    match a with
    | ⟨0, _⟩ => exact e1.symm
    | ⟨1, _⟩ => rfl
  · refine (whole8_apply V c t q).trans (congrArg _ (funext fun a => Fin.ext ?_))
    match a with
    | ⟨0, _⟩ => rfl
    | ⟨1, _⟩ => exact e1.symm

/-- Row `r` of the output is in the block of point `r / 512`: the 32 blocks tile the array. -/
theorem cover11 (i : S16384x1024.Idx) :
    ∃ t : Fin cfg0.N, (cfg0.win 11).flush t = true ∧ i ∈ ((cfg0.win 11).blk t).view.set := by
  have h0 : (i 0).val < 16384 := (i 0).isLt
  have h1 : (i 1).val < 1024 := (i 1).isLt
  have hN : cfg0.N = 32 := N_0
  have hlt : (i 0).val / 512 < cfg0.N := by rw [hN]; omega
  refine ⟨⟨(i 0).val / 512, hlt⟩, flush0_11 _, ?_⟩
  have hi := (idx_facts ⟨(i 0).val / 512, hlt⟩).2.2.2.2.2.2.2.2.2.2.2
  show i ∈ ((View.whole main_v6_2).slice (win0_11.rect ⟨(i 0).val / 512, hlt⟩)).set
  rw [View.set_slice_whole, Rect.mem_set_unit]
  intro a
  match a with
  | ⟨0, _⟩ =>
    show win0_11.index ⟨(i 0).val / 512, hlt⟩ (0 : Fin 2) * 512 ≤ (i 0).val ∧ (i 0).val < win0_11.index ⟨(i 0).val / 512, hlt⟩ (0 : Fin 2) * 512 + 512
    rw [hi.1]; show (i 0).val / 512 * 512 ≤ (i 0).val ∧ (i 0).val < (i 0).val / 512 * 512 + 512; omega
  | ⟨1, _⟩ =>
    show win0_11.index ⟨(i 0).val / 512, hlt⟩ (1 : Fin 2) * 1024 ≤ (i 1).val ∧ (i 1).val < win0_11.index ⟨(i 0).val / 512, hlt⟩ (1 : Fin 2) * 1024 + 1024
    rw [hi.2]; omega

/-- The array after the region's 32 write-backs: the projection, whole. -/
theorem arrAt0_11 (c : Dev nD) : (dat0 V c).arrAt 11 cfg0.N = projRows (V c main_v2) (V c main_arg7) (V c main_v5) :=
  (dat0 V c).arrAt_eq_of_cover 11 (projRows (V c main_v2) (V c main_arg7) (V c main_v5)) (fun t _ => flushed11_eq V c t) (cover11)

end Region

end Cert.KernelIdeal.HandValue

end
-- ==== Proof.Spec.lean ====
/-
  The function both programs compute, over the extended reals, index by index.

  For a batch `b`, a query row `i` and an output column `f`:
    qp b i e = (∑ d, q[b,i,d] · Wq[e,d]) + bq[e]        (likewise kp from k, Wk, bk and vp from v, Wv, bv)
    score b i j = ∑ e, qp b i e · kp b j e
    weight b i j = logistic (score b i j · 1/16)
    out b i f = ∑ j, weight b i j · vp b j f
  The factor 1/16 is kept as the binary word 0x3D800000 (an exact dyadic), so that the side which multiplies by
  that word never evaluates it; a side that divides by 16 instead meets it through one law of the extended reals.
-/
import Idealize.ShloMosaic.PureOps.Ideal
import Idealize.ShloMosaic.Lib.ValueIdx

noncomputable section

namespace Cert.Spec

open Idealize.ShloMosaic Idealize.ShloMosaic.ValueIdx

/-- The array shapes of the statement, as literals. -/
abbrev SX : Shape := ⟨3, ![4, 4096, 1024]⟩
abbrev SW (E : Nat) : Shape := ⟨2, ![E, 1024]⟩
abbrev SB (E : Nat) : Shape := ⟨1, ![E]⟩

/-- A linear projection with bias: row `(b, s)` of `x` against row `e` of `W`, plus entry `e` of the bias. -/
def proj {E : Nat} (x : SX.Idx → EReal) (W : (SW E).Idx → EReal) (bias : (SB E).Idx → EReal)
    (b : Fin 4) (s : Fin 4096) (e : Fin E) : EReal :=
  (∑ d : Fin 1024, x (ix3 b s d) * W (ix2 e d)) + bias (ix1 e)

/-- The score of query row `i` against key row `j` in batch `b`: the inner product of the two projected rows. -/
def score (q k : SX.Idx → EReal) (Wq : (SW 256).Idx → EReal) (bq : (SB 256).Idx → EReal)
    (Wk : (SW 256).Idx → EReal) (bk : (SB 256).Idx → EReal) (b : Fin 4) (i j : Fin 4096) : EReal :=
  ∑ e : Fin 256, proj q Wq bq b i e * proj k Wk bk b j e

/-- The weight of key row `j` for query row `i`: the logistic function of the score scaled by 1/16. -/
def weight (q k : SX.Idx → EReal) (Wq : (SW 256).Idx → EReal) (bq : (SB 256).Idx → EReal)
    (Wk : (SW 256).Idx → EReal) (bk : (SB 256).Idx → EReal) (b : Fin 4) (i j : Fin 4096) : EReal :=
  Ideal.logistic (score q k Wq bq Wk bk b i j * Ideal.ofBits .f32 0x3D800000#32)

/-- The result at batch `b`, row `i`, column `f`: the weighted sum of the projected value rows over all keys. -/
def outAt (q k v : SX.Idx → EReal) (Wq : (SW 256).Idx → EReal) (bq : (SB 256).Idx → EReal)
    (Wk : (SW 256).Idx → EReal) (bk : (SB 256).Idx → EReal) (Wv : (SW 1024).Idx → EReal) (bv : (SB 1024).Idx → EReal)
    (b : Fin 4) (i : Fin 4096) (f : Fin 1024) : EReal :=
  ∑ j : Fin 4096, weight q k Wq bq Wk bk b i j * proj v Wv bv b j f

/-- The whole result array. -/
def G (q k v : SX.Idx → EReal) (Wq : (SW 256).Idx → EReal) (bq : (SB 256).Idx → EReal)
    (Wk : (SW 256).Idx → EReal) (bk : (SB 256).Idx → EReal) (Wv : (SW 1024).Idx → EReal) (bv : (SB 1024).Idx → EReal) :
    SX.Idx → EReal :=
  fun y => outAt q k v Wq bq Wk bk Wv bv (y 0) (y 1) (y 2)

theorem G_ix3 (q k v : SX.Idx → EReal) (Wq : (SW 256).Idx → EReal) (bq : (SB 256).Idx → EReal)
    (Wk : (SW 256).Idx → EReal) (bk : (SB 256).Idx → EReal) (Wv : (SW 1024).Idx → EReal) (bv : (SB 1024).Idx → EReal)
    (b : Fin 4) (i : Fin 4096) (f : Fin 1024) :
    G q k v Wq bq Wk bk Wv bv (ix3 b i f) = outAt q k v Wq bq Wk bk Wv bv b i f := rfl

end Cert.Spec

end
-- ==== Proof.KI.Proj.lean ====
/-
  The three arrays the attention call reads are the projections of the inputs: the first call writes, row by row,
  the product of an input row with a weight row plus the bias; the host reshapes in front of it and behind it only
  regroup the batch and sequence axes into one row axis and back.
-/
import proofs.«163519_j26173530702693_1_alg».proof.Proof.KI.Host
import proofs.«163519_j26173530702693_1_alg».proof.Proof.KI.R0Value
import proofs.«163519_j26173530702693_1_alg».proof.Proof.Spec

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- qp_apply: the rows of `main_v7` that enter the attention call are the projection of `main_arg0` by `main_arg3` with bias `main_arg4`. -/
theorem qp_apply (c : Dev nD) (b : Fin 4) (s : Fin 4096) (e : Fin 256) :
    V3 m ρ c main_v7 (ix3 b s e) = Cert.Spec.proj (m ((c : Thread nD τ).loc main_arg0)) (m ((c : Thread nD τ).loc main_arg3)) (m ((c : Thread nD τ).loc main_arg4)) b s e := by
  rw [V3_v7_apply]
  refine (congrFun ((W2_arr m ρ c 9).trans (arrAt0_9 (V1 m ρ) c)) (ix2 (⟨b.val * 4096 + s.val, by omega⟩ : Fin 16384) e)).trans ?_
  unfold projRows Cert.Spec.proj
  exact congrArg₂ (· + ·)
    (Finset.sum_congr rfl fun d _ => congrArg₂ (· * ·) (V1_v0_apply m ρ c b s d) (congrFun (V1_arg3 m ρ c) (ix2 e d)))
    (V1_v3_apply m ρ c e)

/-- kp_apply: the rows of `main_v8` that enter the attention call are the projection of `main_arg1` by `main_arg5` with bias `main_arg6`. -/
theorem kp_apply (c : Dev nD) (b : Fin 4) (s : Fin 4096) (e : Fin 256) :
    V3 m ρ c main_v8 (ix3 b s e) = Cert.Spec.proj (m ((c : Thread nD τ).loc main_arg1)) (m ((c : Thread nD τ).loc main_arg5)) (m ((c : Thread nD τ).loc main_arg6)) b s e := by
  rw [V3_v8_apply]
  refine (congrFun ((W2_arr m ρ c 10).trans (arrAt0_10 (V1 m ρ) c)) (ix2 (⟨b.val * 4096 + s.val, by omega⟩ : Fin 16384) e)).trans ?_
  unfold projRows Cert.Spec.proj
  exact congrArg₂ (· + ·)
    (Finset.sum_congr rfl fun d _ => congrArg₂ (· * ·) (V1_v1_apply m ρ c b s d) (congrFun (V1_arg5 m ρ c) (ix2 e d)))
    (V1_v4_apply m ρ c e)

/-- vp_apply: the rows of `main_v9` that enter the attention call are the projection of `main_arg2` by `main_arg7` with bias `main_arg8`. -/
theorem vp_apply (c : Dev nD) (b : Fin 4) (s : Fin 4096) (f : Fin 1024) :
    V3 m ρ c main_v9 (ix3 b s f) = Cert.Spec.proj (m ((c : Thread nD τ).loc main_arg2)) (m ((c : Thread nD τ).loc main_arg7)) (m ((c : Thread nD τ).loc main_arg8)) b s f := by
  rw [V3_v9_apply]
  refine (congrFun ((W2_arr m ρ c 11).trans (arrAt0_11 (V1 m ρ) c)) (ix2 (⟨b.val * 4096 + s.val, by omega⟩ : Fin 16384) f)).trans ?_
  unfold projRows Cert.Spec.proj
  exact congrArg₂ (· + ·)
    (Finset.sum_congr rfl fun d _ => congrArg₂ (· * ·) (V1_v2_apply m ρ c b s d) (congrFun (V1_arg7 m ρ c) (ix2 f d)))
    (V1_v5_apply m ρ c f)

end Cert.KernelIdeal.HandValue

end
-- ==== Proof.KI.R1ValueA.lean ====
import proofs.«163519_j26173530702693_1_alg».proof.Proof.KI.R1
import Idealize.ShloMosaic.Lib.Pipeline.Value
import Idealize.ShloMosaic.Lib.Tactic

/-!
What each case of the attention step leaves, as values.

At a point of the first key tile the accumulator ends at the zero array plus the tile's contribution; at any other
point it ends at what it held plus the tile's contribution; at a point of the last key tile the output block
receives the new accumulator under one more leading axis of size one. Every load and store of the step moves a
whole buffer, so each of these is one stored value applied to the buffers' contents.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.SL.Sem

variable {F : FTy → Type} [FloatOps F]

/-- The zero offsets of a rank-2 whole-buffer rectangle, as a constant function. -/
theorem hz2 : (![0, 0] : Fin 2 → Nat) = fun _ => 0 := funext fun a => by fin_cases a <;> rfl
/-- The zero offsets of a rank-3 whole-buffer rectangle, as a constant function. -/
theorem hz3 : (![0, 0, 0] : Fin 3 → Nat) = fun _ => 0 := funext fun a => by fin_cases a <;> rfl

/-- At a first key tile the accumulator is zeroed and the tile's contribution added: it ends at the zero array
    plus the contribution. -/
theorem soutA_eq (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : cond1_0 i) (hc1 : ¬cond1_1 i)
    (x0 : Vec F S1x1024x256 .bf16) (x1 : Vec F S1x512x256 .bf16) (x2 : Vec F S1x512x1024 .bf16) :
    sout1_A_0 c i arg3 harg3 arg4 harg4 arg5 harg5 arg6 harg6 arg7 harg7 hc0 hc1 x0 x1 x2 = k1_pay2 x0 x1 x2 k1_pay1 := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S1024x1024) hz2, View.readCov_unit_zero (S := S1024x1024) _ hz2]
  simp only [View.readAt_eq_ld, harg3.read_unread, harg4.read_unread, harg5.read_unread,
    View.ld_unit_zero (S := S1x1024x256) hz3, View.ld_unit_zero (S := S1x512x256) hz3, View.ld_unit_zero (S := S1x512x1024) hz3]

/-- At a middle key tile the tile's contribution is added to what the accumulator held. -/
theorem soutB_eq (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond1_0 i) (hc1 : ¬cond1_1 i)
    (x0 : Vec F S1x1024x256 .bf16) (x1 : Vec F S1x512x256 .bf16) (x2 : Vec F S1x512x1024 .bf16) (xs0 : Vec F S1024x1024 .f32) :
    sout1_B_0 c i arg3 harg3 arg4 harg4 arg5 harg5 arg6 harg6 arg7 harg7 hc0 hc1 x0 x1 x2 xs0 = k1_pay2 x0 x1 x2 xs0 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  try sl_unfold_words
  rw [View.canon_unit_zero (S := S1024x1024) hz2]
  simp only [View.readAt_eq_ld, harg3.read_unread, harg4.read_unread, harg5.read_unread, harg7.read_unread,
    View.ld_unit_zero (S := S1x1024x256) hz3, View.ld_unit_zero (S := S1x512x256) hz3, View.ld_unit_zero (S := S1x512x1024) hz3,
    View.ld_unit_zero (S := S1024x1024) hz2]

/-- At the last key tile too the tile's contribution is added to what the accumulator held. -/
theorem soutC_eq (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond1_0 i) (hc1 : cond1_1 i)
    (x0 : Vec F S1x1024x256 .bf16) (x1 : Vec F S1x512x256 .bf16) (x2 : Vec F S1x512x1024 .bf16) (xs0 : Vec F S1024x1024 .f32) :
    sout1_C_0 c i arg3 harg3 arg4 harg4 arg5 harg5 arg6 harg6 arg7 harg7 hc0 hc1 x0 x1 x2 xs0 = k1_pay2 x0 x1 x2 xs0 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  try sl_unfold_words
  rw [View.canon_unit_zero (S := S1024x1024) hz2]
  simp only [View.readAt_eq_ld, harg3.read_unread, harg4.read_unread, harg5.read_unread, harg7.read_unread,
    View.ld_unit_zero (S := S1x1024x256) hz3, View.ld_unit_zero (S := S1x512x256) hz3, View.ld_unit_zero (S := S1x512x1024) hz3,
    View.ld_unit_zero (S := S1024x1024) hz2]

/-- At the last key tile the output block receives the new accumulator under one more leading axis. -/
theorem outC_eq (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond1_0 i) (hc1 : cond1_1 i)
    (x0 : Vec F S1x1024x256 .bf16) (x1 : Vec F S1x512x256 .bf16) (x2 : Vec F S1x512x1024 .bf16) (xs0 : Vec F S1024x1024 .f32) :
    out1_C_3 c i arg3 harg3 arg4 harg4 arg5 harg5 arg6 harg6 arg7 harg7 hc0 hc1 x0 x1 x2 xs0 = k1_pay3 (k1_pay2 x0 x1 x2 xs0) := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  try sl_unfold_words
  rw [View.canon_unit_zero (S := S1x1024x1024) hz3, View.readCov_unit_zero (S := S1024x1024) _ hz2]
  simp only [View.readAt_eq_ld, harg3.read_unread, harg4.read_unread, harg5.read_unread, harg7.read_unread,
    View.ld_unit_zero (S := S1x1024x256) hz3, View.ld_unit_zero (S := S1x512x256) hz3, View.ld_unit_zero (S := S1x512x1024) hz3,
    View.ld_unit_zero (S := S1024x1024) hz2]

end Cert.KernelIdeal.HandValue

end
-- ==== Proof.KI.R1Pay.lean ====
import proofs.«163519_j26173530702693_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-!
The three values the attention step stores, read at one index over the extended reals.

The accumulator starts as the zero array. One step adds to the accumulator, at row `r` and column `f`, the sum over
the 512 key rows `jj` of the current tile of  logistic (score r jj · 1/16) · value jj f, where the score is the inner
product over the 256 projected coordinates of the query row with the key row. The last step copies the accumulator
to the output block, which carries one extra leading axis of size one. Changing the number format of a weight is the
identity on the extended reals, and a product of a [1024, 256] matrix with a [256, 512] matrix (the key tile
transposed) into a zero accumulator is the plain sum of products.
-/

noncomputable section

namespace Cert.KernelIdeal.HandValue

open Cert.KernelIdeal Cert.KernelIdeal.Gen Idealize.ShloMosaic Idealize.ShloMosaic.ValueIdx

/-! ## The two matrix products at an index

First, which output coordinate or contracted coordinate each operand coordinate of the two products reads. -/

theorem scores_lhs_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem scores_lhs_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem scores_rhs_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem scores_rhs_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

theorem values_lhs_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem values_lhs_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem values_rhs_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem values_rhs_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- A [1024, 256] by [256, 512] product into the zero array, at row `r` and column `jj`: the sum over the 256
    contracted coordinates. -/
theorem matmul_scores_apply (A : FVec Ideal S1024x256 .bf16) (B : FVec Ideal S256x512 .bf16) (r : Fin 1024) (jj : Fin 512) :
    matmul dot_S1024x256_S256x512_S1024x512_1_0_0_1_n_n none A B (constant S1024x512 .f32 0x00000000#32) (ix2 r jj)
      = ∑ e : Fin 256, A (ix2 r e) * B (ix2 e jj) := by
  refine (Ideal.matmul_constant_zero_apply dot_S1024x256_S256x512_S1024x512_1_0_0_1_n_n none A B (ix2 r jj)).trans ?_
  rw [← Equiv.sum_comp (contrEquiv1 dot_S1024x256_S256x512_S1024x512_1_0_0_1_n_n 256 rfl rfl).symm]
  refine Finset.sum_congr rfl fun e _ => ?_
  have hk := contrEquiv1_symm_val dot_S1024x256_S256x512_S1024x512_1_0_0_1_n_n 256 rfl rfl e
  have el : dot_S1024x256_S256x512_S1024x512_1_0_0_1_n_n.lhsIdx (ix2 r jj) ((contrEquiv1 dot_S1024x256_S256x512_S1024x512_1_0_0_1_n_n 256 rfl rfl).symm e) = ix2 r e :=
    funext fun a => Fin.ext (by
      match a with
      | ⟨0, _⟩ => exact scores_lhs_0 _ _
      | ⟨1, _⟩ => exact (scores_lhs_1 _ _).trans hk)
  have er : dot_S1024x256_S256x512_S1024x512_1_0_0_1_n_n.rhsIdx (ix2 r jj) ((contrEquiv1 dot_S1024x256_S256x512_S1024x512_1_0_0_1_n_n 256 rfl rfl).symm e) = ix2 e jj :=
    funext fun a => Fin.ext (by
      match a with
      | ⟨0, _⟩ => exact (scores_rhs_0 _ _).trans hk
      | ⟨1, _⟩ => exact scores_rhs_1 _ _)
  rw [el, er]

/-- A [1024, 512] by [512, 1024] product into the zero array, at row `r` and column `f`: the sum over the 512
    contracted coordinates. -/
theorem matmul_values_apply (A : FVec Ideal S1024x512 .bf16) (B : FVec Ideal S512x1024 .bf16) (r f : Fin 1024) :
    matmul dot_S1024x512_S512x1024_S1024x1024_1_0_0_1_n_n none A B (constant S1024x1024 .f32 0x00000000#32) (ix2 r f)
      = ∑ jj : Fin 512, A (ix2 r jj) * B (ix2 jj f) := by
  refine (Ideal.matmul_constant_zero_apply dot_S1024x512_S512x1024_S1024x1024_1_0_0_1_n_n none A B (ix2 r f)).trans ?_
  rw [← Equiv.sum_comp (contrEquiv1 dot_S1024x512_S512x1024_S1024x1024_1_0_0_1_n_n 512 rfl rfl).symm]
  refine Finset.sum_congr rfl fun jj _ => ?_
  have hk := contrEquiv1_symm_val dot_S1024x512_S512x1024_S1024x1024_1_0_0_1_n_n 512 rfl rfl jj
  have el : dot_S1024x512_S512x1024_S1024x1024_1_0_0_1_n_n.lhsIdx (ix2 r f) ((contrEquiv1 dot_S1024x512_S512x1024_S1024x1024_1_0_0_1_n_n 512 rfl rfl).symm jj) = ix2 r jj :=
    funext fun a => Fin.ext (by
      match a with
      | ⟨0, _⟩ => exact values_lhs_0 _ _
      | ⟨1, _⟩ => exact (values_lhs_1 _ _).trans hk)
  have er : dot_S1024x512_S512x1024_S1024x1024_1_0_0_1_n_n.rhsIdx (ix2 r f) ((contrEquiv1 dot_S1024x512_S512x1024_S1024x1024_1_0_0_1_n_n 512 rfl rfl).symm jj) = ix2 jj f :=
    funext fun a => Fin.ext (by
      match a with
      | ⟨0, _⟩ => exact (values_rhs_0 _ _).trans hk
      | ⟨1, _⟩ => exact values_rhs_1 _ _)
  rw [el, er]

/-! ## The three stored values -/

/-- The accumulator's first value is zero everywhere. -/
theorem pay1_apply (r f : Fin 1024) : k1_pay1 (F := Ideal) (ix2 r f) = 0 := by
  unfold k1_pay1
  refine (congrFun (shapeCast_self _ _) (ix2 r f)).trans ?_
  exact Ideal.ofBits_zero_f32

/-- One step's new accumulator: the old one plus the tile's weighted sum of value rows. -/
theorem pay2_apply (v3 : Vec Ideal S1x1024x256 .bf16) (v5 : Vec Ideal S1x512x256 .bf16) (v7 : Vec Ideal S1x512x1024 .bf16)
    (v15 : Vec Ideal S1024x1024 .f32) (r f : Fin 1024) :
    k1_pay2 v3 v5 v7 v15 (ix2 r f)
      = v15 (ix2 r f) + ∑ jj : Fin 512,
          Ideal.logistic ((∑ e : Fin 256, v3 (ix3 0 r e) * v5 (ix3 0 jj e)) * Ideal.ofBits .f32 0x3D800000#32)
            * v7 (ix3 0 jj f) := by
  unfold k1_pay2
  refine (congrFun (shapeCast_self _ _) (ix2 r f)).trans ?_
  refine (addf_apply _ _ _).trans ?_
  refine congrArg (v15 (ix2 r f) + ·) ?_
  refine (matmul_values_apply _ _ r f).trans ?_
  refine Finset.sum_congr rfl fun jj _ => ?_
  refine congrArg₂ (· * ·) ?_ (shapeCast_1ab_ab_apply v7 _ jj f)
  show Ideal.logistic (matmul (F := Ideal) dot_S1024x256_S256x512_S1024x512_1_0_0_1_n_n none _ _ (constant S1024x512 .f32 0x00000000#32) (ix2 r jj) * Ideal.ofBits .f32 0x3D800000#32) = _
  refine congrArg (fun x => Ideal.logistic (x * Ideal.ofBits .f32 0x3D800000#32)) ?_
  refine (matmul_scores_apply _ _ r jj).trans ?_
  refine Finset.sum_congr rfl fun e _ => ?_
  refine congrArg₂ (· * ·) (shapeCast_1ab_ab_apply v3 _ r e) ?_
  refine (transpose_ix2_apply _ _ e jj).trans ?_
  exact shapeCast_1ab_ab_apply v5 _ jj e

/-- The output block is the accumulator under one more leading axis of size one. -/
theorem pay3_apply (v24 : Vec Ideal S1024x1024 .f32) (r f : Fin 1024) : k1_pay3 v24 (ix3 0 r f) = v24 (ix2 r f) := by
  unfold k1_pay3
  exact shapeCast_ab_1ab_apply v24 _ 0 r f

end Cert.KernelIdeal.HandValue

end
-- ==== Proof.SumTiles.lean ====
import Mathlib.Data.EReal.Basic
import Mathlib.Algebra.BigOperators.Fin
import Mathlib.Logic.Equiv.Fin.Basic

/-!
Regrouping a sum of 4096 extended reals into 8 consecutive blocks of 512 terms.
Addition on the extended reals is a commutative monoid, so no finiteness
hypothesis is needed for the regrouping.
-/

namespace Cert.SumTiles

open BigOperators

/-- The sum of the `k`-th block of 512 consecutive terms of `f`. -/
noncomputable def tile (f : Fin 4096 → EReal) (k : Fin 8) : EReal :=
  ∑ jj : Fin 512, f ⟨k.val * 512 + jj.val, by omega⟩

/-- A sum over 4096 indices is the sum of its 8 block sums:
every index is uniquely `k * 512 + jj` with `k < 8` and `jj < 512`. -/
theorem sum_eq_sum_tiles (f : Fin 4096 → EReal) :
    ∑ j : Fin 4096, f j = ∑ k : Fin 8, tile f k := by
  have h := Equiv.sum_comp (finProdFinEquiv : Fin 8 × Fin 512 ≃ Fin (8 * 512))
    (fun j : Fin (8 * 512) => f ⟨j.val, by have := j.isLt; omega⟩)
  have h' : ∑ j : Fin (8 * 512), f ⟨j.val, by have := j.isLt; omega⟩ = ∑ j : Fin 4096, f j := rfl
  rw [← h', ← h, Fintype.sum_prod_type]
  refine Finset.sum_congr rfl fun k _ => ?_
  unfold tile
  refine Finset.sum_congr rfl fun jj _ => ?_
  congr 1
  apply Fin.ext
  simp only [finProdFinEquiv_apply_val]
  omega

/-- A running sum that starts from zero and adds one block per step
holds, after the last of the 8 steps, the full sum. -/
theorem acc_eq_sum (f : Fin 4096 → EReal) (S : Fin 8 → EReal) (h0 : S 0 = 0 + tile f 0)
    (hs : ∀ (k : Fin 8) (hk : k.val + 1 < 8), S ⟨k.val + 1, hk⟩ = S k + tile f ⟨k.val + 1, hk⟩) :
    S 7 = ∑ j : Fin 4096, f j := by
  have h1 : S 1 = S 0 + tile f 1 := hs 0 (by decide)
  have h2 : S 2 = S 1 + tile f 2 := hs 1 (by decide)
  have h3 : S 3 = S 2 + tile f 3 := hs 2 (by decide)
  have h4 : S 4 = S 3 + tile f 4 := hs 3 (by decide)
  have h5 : S 5 = S 4 + tile f 5 := hs 4 (by decide)
  have h6 : S 6 = S 5 + tile f 6 := hs 5 (by decide)
  have h7 : S 7 = S 6 + tile f 7 := hs 6 (by decide)
  rw [sum_eq_sum_tiles, Fin.sum_univ_eight, h7, h6, h5, h4, h3, h2, h1, h0, zero_add]

end Cert.SumTiles
-- ==== Proof.KI.R1ValueB.lean ====
import proofs.«163519_j26173530702693_1_alg».proof.Proof.KI.R1ValueA
import proofs.«163519_j26173530702693_1_alg».proof.Proof.KI.R1Pay
import proofs.«163519_j26173530702693_1_alg».proof.Proof.SumTiles
import Idealize.ShloMosaic.Lib.Pipeline.Value
import Idealize.ShloMosaic.Lib.ValueIdx
import Idealize.ShloMosaic.Lib.Tactic

/-!
The attention region's accumulator, point by point, as sums of key terms.

A grid point `t` has batch `t / 32`, query tile `t / 8 % 4` and key tile `t % 8`. Its query block is rows
`qi · 1024 + r` of the projected queries, its key and value blocks are rows `ki · 512 + jj` of the projected keys and
values, all of batch `b`. So the tile's contribution to row `r`, column `f` of the accumulator is the sum, over the
tile's 512 keys, of the key term  logistic (score · 1/16) · value  of query row `qi · 1024 + r`; the accumulator after
a point is zero (first key tile) or what the point before left (otherwise), plus that.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.SL.Sem Idealize.ShloMosaic.ValueIdx
open Idealize.ShloMosaic.Pipeline (Dat)

/-! ## Where each block sits in its array

The grid point `t` (the key tile innermost) has batch `t / 32`, query tile `t / 8 % 4` and key tile `t % 8`. -/

theorem index1_0 : ∀ t : Fin cfg1.N, win1_0.index t 0 = t.val / 32 ∧ win1_0.index t 1 = t.val / 8 % 4 ∧ win1_0.index t 2 = 0 :=
  (by decide +kernel : ∀ t : Fin grid1.N, win1_0.index t 0 = t.val / 32 ∧ win1_0.index t 1 = t.val / 8 % 4 ∧ win1_0.index t 2 = 0)
theorem index1_1 : ∀ t : Fin cfg1.N, win1_1.index t 0 = t.val / 32 ∧ win1_1.index t 1 = t.val % 8 ∧ win1_1.index t 2 = 0 :=
  (by decide +kernel : ∀ t : Fin grid1.N, win1_1.index t 0 = t.val / 32 ∧ win1_1.index t 1 = t.val % 8 ∧ win1_1.index t 2 = 0)
theorem index1_2 : ∀ t : Fin cfg1.N, win1_2.index t 0 = t.val / 32 ∧ win1_2.index t 1 = t.val % 8 ∧ win1_2.index t 2 = 0 :=
  (by decide +kernel : ∀ t : Fin grid1.N, win1_2.index t 0 = t.val / 32 ∧ win1_2.index t 1 = t.val % 8 ∧ win1_2.index t 2 = 0)
theorem index1_3 : ∀ t : Fin cfg1.N, win1_3.index t 0 = t.val / 32 ∧ win1_3.index t 1 = t.val / 8 % 4 ∧ win1_3.index t 2 = 0 :=
  (by decide +kernel : ∀ t : Fin grid1.N, win1_3.index t 0 = t.val / 32 ∧ win1_3.index t 1 = t.val / 8 % 4 ∧ win1_3.index t 2 = 0)

section Blocks

variable (V : (c : Dev nD) → (b : Ref sig .tc) → Buf (Elt Ideal) ((c : Thread nD τ).loc b))

/-- The query block at a point: rows `qi · 1024 + r` of batch `b` of the projected queries. -/
theorem iblk1_0_apply (c : Dev nD) (t : Fin cfg1.N) (x : S1x1024x256.Idx) (k : S4x4096x256.Idx)
    (hk0 : (k 0).val = t.val / 32) (hk1 : (k 1).val = t.val / 8 % 4 * 1024 + (x 1).val) (hk2 : (k 2).val = (x 2).val) :
    (iblk1 V c 0 t : Vec Ideal S1x1024x256 .bf16) x = (V c main_v7 : S4x4096x256.Idx → EReal) k := by
  obtain ⟨h0, h1, h2⟩ := index1_0 t
  have hx0 : (x 0).val = 0 := by have h : (x 0).val < 1 := (x 0).isLt; omega
  unfold iblk1
  rw [View.read_apply]
  show V c main_v7 _ = V c main_v7 _
  congr 1
  funext a
  apply Fin.ext
  match a with
  | ⟨0, _⟩ => show win1_0.index t 0 * 1 + 1 * (x 0).val = (k 0).val; rw [h0, hk0, hx0]; omega
  | ⟨1, _⟩ => show win1_0.index t 1 * 1024 + 1 * (x 1).val = (k 1).val; rw [h1, hk1]; omega
  | ⟨2, _⟩ => show win1_0.index t 2 * 256 + 1 * (x 2).val = (k 2).val; rw [h2, hk2]; omega

/-- The key block at a point: rows `ki · 512 + jj` of batch `b` of the projected keys. -/
theorem iblk1_1_apply (c : Dev nD) (t : Fin cfg1.N) (x : S1x512x256.Idx) (k : S4x4096x256.Idx)
    (hk0 : (k 0).val = t.val / 32) (hk1 : (k 1).val = t.val % 8 * 512 + (x 1).val) (hk2 : (k 2).val = (x 2).val) :
    (iblk1 V c 1 t : Vec Ideal S1x512x256 .bf16) x = (V c main_v8 : S4x4096x256.Idx → EReal) k := by
  obtain ⟨h0, h1, h2⟩ := index1_1 t
  have hx0 : (x 0).val = 0 := by have h : (x 0).val < 1 := (x 0).isLt; omega
  unfold iblk1
  rw [View.read_apply]
  show V c main_v8 _ = V c main_v8 _
  congr 1
  funext a
  apply Fin.ext
  match a with
  | ⟨0, _⟩ => show win1_1.index t 0 * 1 + 1 * (x 0).val = (k 0).val; rw [h0, hk0, hx0]; omega
  | ⟨1, _⟩ => show win1_1.index t 1 * 512 + 1 * (x 1).val = (k 1).val; rw [h1, hk1]; omega
  | ⟨2, _⟩ => show win1_1.index t 2 * 256 + 1 * (x 2).val = (k 2).val; rw [h2, hk2]; omega

/-- The value block at a point: rows `ki · 512 + jj` of batch `b` of the projected values. -/
theorem iblk1_2_apply (c : Dev nD) (t : Fin cfg1.N) (x : S1x512x1024.Idx) (k : S4x4096x1024.Idx)
    (hk0 : (k 0).val = t.val / 32) (hk1 : (k 1).val = t.val % 8 * 512 + (x 1).val) (hk2 : (k 2).val = (x 2).val) :
    (iblk1 V c 2 t : Vec Ideal S1x512x1024 .bf16) x = (V c main_v9 : S4x4096x1024.Idx → EReal) k := by
  obtain ⟨h0, h1, h2⟩ := index1_2 t
  have hx0 : (x 0).val = 0 := by have h : (x 0).val < 1 := (x 0).isLt; omega
  unfold iblk1
  rw [View.read_apply]
  show V c main_v9 _ = V c main_v9 _
  congr 1
  funext a
  apply Fin.ext
  match a with
  | ⟨0, _⟩ => show win1_2.index t 0 * 1 + 1 * (x 0).val = (k 0).val; rw [h0, hk0, hx0]; omega
  | ⟨1, _⟩ => show win1_2.index t 1 * 512 + 1 * (x 1).val = (k 1).val; rw [h1, hk1]; omega
  | ⟨2, _⟩ => show win1_2.index t 2 * 1024 + 1 * (x 2).val = (k 2).val; rw [h2, hk2]; omega

end Blocks

/-! ## The function the region computes -/

/-- One key row's term of a result element: the logistic weight of the scaled score, times the value entry. -/
def keyTerm (Q K : (⟨3, ![4, 4096, 256]⟩ : Shape).Idx → EReal) (Vv : (⟨3, ![4, 4096, 1024]⟩ : Shape).Idx → EReal)
    (b : Fin 4) (i : Fin 4096) (f : Fin 1024) (j : Fin 4096) : EReal :=
  Ideal.logistic ((∑ e : Fin 256, Q (ix3 b i e) * K (ix3 b j e)) * Ideal.ofBits .f32 0x3D800000#32) * Vv (ix3 b j f)

/-- The weighted sum of the value rows over all 4096 keys, for every batch, query row and output column. -/
def attnRows (Q K : (⟨3, ![4, 4096, 256]⟩ : Shape).Idx → EReal) (Vv : (⟨3, ![4, 4096, 1024]⟩ : Shape).Idx → EReal) :
    (⟨3, ![4, 4096, 1024]⟩ : Shape).Idx → EReal :=
  fun y => ∑ j : Fin 4096, Ideal.logistic ((∑ e : Fin 256, Q (ValueIdx.ix3 (y 0) (y 1) e) * K (ValueIdx.ix3 (y 0) j e))
    * Ideal.ofBits .f32 0x3D800000#32) * Vv (ValueIdx.ix3 (y 0) j (y 2))

theorem attnRows_ix3 (Q K : (⟨3, ![4, 4096, 256]⟩ : Shape).Idx → EReal) (Vv : (⟨3, ![4, 4096, 1024]⟩ : Shape).Idx → EReal)
    (b : Fin 4) (i : Fin 4096) (f : Fin 1024) : attnRows Q K Vv (ix3 b i f) = ∑ j : Fin 4096, keyTerm Q K Vv b i f j := rfl

section Accumulator

variable (V : (c : Dev nD) → (b : Ref sig .tc) → Buf (Elt Ideal) ((c : Thread nD τ).loc b))

/-- A tile's contribution at a point, read off the arrays: the sum of the key terms over the tile's 512 key rows. -/
theorem tile_at (c : Dev nD) (t : Fin cfg1.N) (x0 : Vec Ideal S1x1024x256 .bf16) (x1 : Vec Ideal S1x512x256 .bf16)
    (x2 : Vec Ideal S1x512x1024 .bf16) (hx0 : x0 = iblk1 V c 0 t) (hx1 : x1 = iblk1 V c 1 t) (hx2 : x2 = iblk1 V c 2 t)
    (b : Fin 4) (i : Fin 4096) (k : Fin 8) (r f : Fin 1024)
    (hb : b.val = t.val / 32) (hi : i.val = t.val / 8 % 4 * 1024 + r.val) (hk : k.val = t.val % 8) :
    (∑ jj : Fin 512, Ideal.logistic ((∑ e : Fin 256, x0 (ix3 0 r e) * x1 (ix3 0 jj e)) * Ideal.ofBits .f32 0x3D800000#32)
        * x2 (ix3 0 jj f))
      = Cert.SumTiles.tile (keyTerm (V c main_v7) (V c main_v8) (V c main_v9) b i f) k := by
  subst hx0 hx1 hx2
  unfold Cert.SumTiles.tile
  refine Finset.sum_congr rfl fun jj _ => ?_
  unfold keyTerm
  have hj : k.val * 512 + jj.val < 4096 := by have := k.isLt; have := jj.isLt; omega
  have hjv : ((⟨k.val * 512 + jj.val, hj⟩ : Fin 4096)).val = t.val % 8 * 512 + jj.val := by show k.val * 512 + jj.val = _; rw [hk]
  refine congrArg₂ (fun s u => Ideal.logistic (s * Ideal.ofBits .f32 0x3D800000#32) * u) (Finset.sum_congr rfl fun e _ => ?_)
    (iblk1_2_apply V c t (ix3 0 jj f) (ix3 b ⟨k.val * 512 + jj.val, hj⟩ f) hb hjv rfl)
  exact congrArg₂ (· * ·) (iblk1_0_apply V c t (ix3 0 r e) (ix3 b i e) hb hi rfl)
    (iblk1_1_apply V c t (ix3 0 jj e) (ix3 b ⟨k.val * 512 + jj.val, hj⟩ e) hb hjv rfl)

/-- After a point of the first key tile the accumulator holds zero plus the tile's contribution. -/
theorem acc_first (c : Dev nD) (t : Fin cfg1.N) (h0 : t.val % 8 = 0) (b : Fin 4) (i : Fin 4096) (k : Fin 8) (r f : Fin 1024)
    (hb : b.val = t.val / 32) (hi : i.val = t.val / 8 % 4 * 1024 + r.val) (hk : k.val = t.val % 8) :
    (outsAt1 V c t.val t.isLt).2 (ix2 r f)
      = 0 + Cert.SumTiles.tile (keyTerm (V c main_v7) (V c main_v8) (V c main_v9) b i f) k := by
  have h1 : ¬t.val % 8 = 7 := by omega
  rw [outsAt1_A V c t h0 h1]
  dsimp only
  rw [soutA_eq (F := Ideal) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)]
  refine (pay2_apply (iblk1 V c 0 t) (iblk1 V c 1 t) (iblk1 V c 2 t) (k1_pay1 (F := Ideal)) r f).trans ?_
  exact congrArg₂ (· + ·) (pay1_apply r f)
    (tile_at V c t (iblk1 V c 0 t) (iblk1 V c 1 t) (iblk1 V c 2 t) rfl rfl rfl b i k r f hb hi hk)

/-- After any later point it holds what the point before left plus the tile's contribution. -/
theorem acc_next (c : Dev nD) (t : Fin cfg1.N) (h0 : ¬t.val % 8 = 0) (b : Fin 4) (i : Fin 4096) (k : Fin 8) (r f : Fin 1024)
    (hb : b.val = t.val / 32) (hi : i.val = t.val / 8 % 4 * 1024 + r.val) (hk : k.val = t.val % 8) :
    (outsAt1 V c t.val t.isLt).2 (ix2 r f)
      = (outsAt1 V c (t.val - 1) (Nat.lt_of_le_of_lt (Nat.sub_le _ _) t.isLt)).2 (ix2 r f)
        + Cert.SumTiles.tile (keyTerm (V c main_v7) (V c main_v8) (V c main_v9) b i f) k := by
  by_cases h1 : t.val % 8 = 7
  · rw [outsAt1_C V c t h0 h1]
    dsimp only
    rw [soutC_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2]
    refine (pay2_apply (iblk1 V c 0 t) (iblk1 V c 1 t) (iblk1 V c 2 t) (outsAt1 V c (t.val - 1) (Nat.lt_of_le_of_lt (Nat.sub_le _ _) t.isLt)).2 r f).trans ?_
    exact congrArg (_ + ·) (tile_at V c t (iblk1 V c 0 t) (iblk1 V c 1 t) (iblk1 V c 2 t) rfl rfl rfl b i k r f hb hi hk)
  · rw [outsAt1_B V c t h0 h1]
    dsimp only
    rw [soutB_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2]
    refine (pay2_apply (iblk1 V c 0 t) (iblk1 V c 1 t) (iblk1 V c 2 t) (outsAt1 V c (t.val - 1) (Nat.lt_of_le_of_lt (Nat.sub_le _ _) t.isLt)).2 r f).trans ?_
    exact congrArg (_ + ·) (tile_at V c t (iblk1 V c 0 t) (iblk1 V c 1 t) (iblk1 V c 2 t) rfl rfl rfl b i k r f hb hi hk)

end Accumulator

end Cert.KernelIdeal.HandValue

end
-- ==== Proof.KI.R1Value.lean ====
import proofs.«163519_j26173530702693_1_alg».proof.Proof.KI.R1ValueB
import proofs.«163519_j26173530702693_1_alg».proof.Proof.KI.R1Pay
import proofs.«163519_j26173530702693_1_alg».proof.Proof.SumTiles
import Idealize.ShloMosaic.Lib.Pipeline.Value
import Idealize.ShloMosaic.Lib.ValueIdx
import Idealize.ShloMosaic.Lib.Tactic

/-!
What the attention region leaves in its output array.

For one batch and one query tile the eight grid points of the key tiles follow one another; the accumulator starts
from zero at the first and each point adds its tile of 512 keys, so after the eighth it holds, at every row and
column, the sum over all 4096 keys. That point copies the accumulator to the output block, and the block is written
back to rows `qi · 1024 … qi · 1024 + 1023` of batch `b` of the output array. These sixteen blocks tile the array,
so the array ends as one function of the projected queries, keys and values: the weighted sum of the value rows.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.SL.Sem Idealize.ShloMosaic.ValueIdx
open Idealize.ShloMosaic.Pipeline (Dat)

section Array

variable (V : (c : Dev nD) → (b : Ref sig .tc) → Buf (Elt Ideal) ((c : Thread nD τ).loc b))

/-- The contents after a point depend on the point's position only. -/
theorem outsAt1_congr (c : Dev nD) (n n' : ℕ) (h : n = n') (hn : n < cfg1.N) (hn' : n' < cfg1.N) :
    outsAt1 V c n hn = outsAt1 V c n' hn' := by subst h; rfl

/-- After the last key tile of a query tile the accumulator holds, at row `r` and column `f`, the whole sum over the
    4096 keys: the eight points of the query tile add the eight tiles of 512 keys one after the other, from zero. -/
theorem acc_last (c : Dev nD) (t : Fin cfg1.N) (h7 : t.val % 8 = 7) (b : Fin 4) (i : Fin 4096) (r f : Fin 1024)
    (hb : b.val = t.val / 32) (hi : i.val = t.val / 8 % 4 * 1024 + r.val) :
    (outsAt1 V c t.val t.isLt).2 (ix2 r f) = ∑ j : Fin 4096, keyTerm (V c main_v7) (V c main_v8) (V c main_v9) b i f j := by
  have ht := t.isLt
  have key := Cert.SumTiles.acc_eq_sum (keyTerm (V c main_v7) (V c main_v8) (V c main_v9) b i f)
    (fun k => (outsAt1 V c (t.val - 7 + k.val) (by have := k.isLt; omega)).2 (ix2 r f))
    (acc_first V c ⟨t.val - 7 + ((0 : Fin 8) : ℕ), by show t.val - 7 + 0 < cfg1.N; omega⟩ (by show (t.val - 7 + 0) % 8 = 0; omega) b i 0 r f
      (by show b.val = (t.val - 7 + 0) / 32; omega) (by show i.val = (t.val - 7 + 0) / 8 % 4 * 1024 + r.val; omega)
      (by show 0 = (t.val - 7 + 0) % 8; omega))
    (fun k hk => by
      have hk8 := k.isLt
      have e := acc_next V c ⟨t.val - 7 + (k.val + 1), by omega⟩ (by show ¬(t.val - 7 + (k.val + 1)) % 8 = 0; omega) b i ⟨k.val + 1, hk⟩ r f
        (by show b.val = (t.val - 7 + (k.val + 1)) / 32; omega) (by show i.val = (t.val - 7 + (k.val + 1)) / 8 % 4 * 1024 + r.val; omega)
        (by show k.val + 1 = (t.val - 7 + (k.val + 1)) % 8; omega)
      refine e.trans ?_
      refine congrArg (fun X : Vec Ideal S1x1024x1024 .f32 × Vec Ideal S1024x1024 .f32 => X.2 (ix2 r f) + _) ?_
      exact outsAt1_congr V c _ _ (by show t.val - 7 + (k.val + 1) - 1 = t.val - 7 + k.val; omega) _ _)
  refine Eq.trans ?_ key
  refine congrArg (fun X : Vec Ideal S1x1024x1024 .f32 × Vec Ideal S1024x1024 .f32 => X.2 (ix2 r f)) ?_
  exact outsAt1_congr V c _ _ (by show t.val = t.val - 7 + 7; omega) _ _

/-- At the last key tile of a query tile the output block receives the finished rows. -/
theorem out_last (c : Dev nD) (t : Fin cfg1.N) (h7 : t.val % 8 = 7) (b : Fin 4) (i : Fin 4096) (r f : Fin 1024)
    (hb : b.val = t.val / 32) (hi : i.val = t.val / 8 % 4 * 1024 + r.val) :
    (outsAt1 V c t.val t.isLt).1 (ix3 0 r f) = attnRows (V c main_v7) (V c main_v8) (V c main_v9) (ix3 b i f) := by
  have h0 : ¬t.val % 8 = 0 := by omega
  have e2 : (outsAt1 V c t.val t.isLt).2
      = k1_pay2 (iblk1 V c 0 t) (iblk1 V c 1 t) (iblk1 V c 2 t) (outsAt1 V c (t.val - 1) (Nat.lt_of_le_of_lt (Nat.sub_le _ _) t.isLt)).2 := by
    rw [outsAt1_C V c t h0 h7]
    dsimp only
    exact soutC_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h7) (iblk1 V c 0 t) (iblk1 V c 1 t) (iblk1 V c 2 t) (outsAt1 V c (t.val - 1) (Nat.lt_of_le_of_lt (Nat.sub_le _ _) t.isLt)).2
  have e1 : (outsAt1 V c t.val t.isLt).1
      = k1_pay3 (k1_pay2 (iblk1 V c 0 t) (iblk1 V c 1 t) (iblk1 V c 2 t) (outsAt1 V c (t.val - 1) (Nat.lt_of_le_of_lt (Nat.sub_le _ _) t.isLt)).2) := by
    rw [outsAt1_C V c t h0 h7]
    dsimp only
    exact outC_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h7) (iblk1 V c 0 t) (iblk1 V c 1 t) (iblk1 V c 2 t) (outsAt1 V c (t.val - 1) (Nat.lt_of_le_of_lt (Nat.sub_le _ _) t.isLt)).2
  rw [e1, ← e2]
  refine (pay3_apply (outsAt1 V c t.val t.isLt).2 r f).trans ?_
  rw [attnRows_ix3]
  exact acc_last V c t h7 b i r f hb hi

end Array

section Final

variable (V : (c : Dev nD) → (b : Ref sig .tc) → Buf (Elt Ideal) ((c : Thread nD τ).loc b))

/-- What a write-back writes: at the last key tile of a query tile, that query tile's block of the finished array. -/
theorem flushed1_3_eq (c : Dev nD) (t : Fin cfg1.N) (hf : (cfg1.win 3).flush t = true) :
    (dat1 V c).flushed 3 t
      = ((cfg1.win 3).blk t).view.read (Elt Ideal) (attnRows (V c main_v7) (V c main_v8) (V c main_v9)) := by
  have h7 : t.val % 8 = 7 := (flush1_3 t).mp hf
  have hN : cfg1.N = 128 := N_1
  have ht := t.isLt
  obtain ⟨i0, i1, i2⟩ := index1_3 t
  show (cfg1.win 3).cut (grid1.coords t) ((dat1 V c).after 3 t) = _
  rw [after1_3]
  funext y
  rw [View.read_apply]
  have hy0 : (y 0).val < 1 := (y 0).isLt
  have hy1 : (y 1).val < 1024 := (y 1).isLt
  have hy2 : (y 2).val < 1024 := (y 2).isLt
  have hL : (cfg1.win 3).xinj (grid1.coords t) y = ix3 (0 : Fin 1) (⟨(y 1).val, hy1⟩ : Fin 1024) (⟨(y 2).val, hy2⟩ : Fin 1024) :=
    funext fun a => Fin.ext (by
      match a with
      | ⟨0, _⟩ => show (y 0).val = 0; omega
      | ⟨1, _⟩ => rfl
      | ⟨2, _⟩ => rfl)
  have hR : ((cfg1.win 3).blk t).view.emb y
      = ix3 (⟨t.val / 32, by omega⟩ : Fin 4) (⟨t.val / 8 % 4 * 1024 + (y 1).val, by omega⟩ : Fin 4096) (⟨(y 2).val, hy2⟩ : Fin 1024) :=
    funext fun a => Fin.ext (by
      match a with
      | ⟨0, _⟩ => show win1_3.index t 0 * 1 + 1 * (y 0).val = t.val / 32; rw [i0]; omega
      | ⟨1, _⟩ => show win1_3.index t 1 * 1024 + 1 * (y 1).val = t.val / 8 % 4 * 1024 + (y 1).val; rw [i1]; omega
      | ⟨2, _⟩ => show win1_3.index t 2 * 1024 + 1 * (y 2).val = (y 2).val; rw [i2]; omega)
  show (outsAt1 V c t.val t.isLt).1 ((cfg1.win 3).xinj (grid1.coords t) y) = _
  rw [hL, hR]
  exact out_last V c t h7 _ _ _ _ rfl rfl

/-- The region leaves, in its output array, the weighted sums of the value rows over all keys: every row lies in the
    block written back at the last key tile of its query tile. -/
theorem arrAt1_3 (c : Dev nD) :
    (dat1 V c).arrAt 3 cfg1.N = attnRows (V c main_v7) (V c main_v8) (V c main_v9) :=
  (dat1 V c).arrAt_eq_of_cover 3 (attnRows (V c main_v7) (V c main_v8) (V c main_v9)) (flushed1_3_eq V c) fun i => by
    have hN : cfg1.N = 128 := N_1
    have h0 : (i 0 : ℕ) < 4 := (i 0).isLt
    have h1 : (i 1 : ℕ) < 4096 := (i 1).isLt
    have h2 : (i 2 : ℕ) < 1024 := (i 2).isLt
    have htN : ((i 0 : ℕ) * 4 + (i 1 : ℕ) / 1024) * 8 + 7 < cfg1.N := by omega
    refine ⟨⟨((i 0 : ℕ) * 4 + (i 1 : ℕ) / 1024) * 8 + 7, htN⟩, (flush1_3 _).mpr (by show (((i 0 : ℕ) * 4 + (i 1 : ℕ) / 1024) * 8 + 7) % 8 = 7; omega), ?_⟩
    obtain ⟨i0, i1, i2⟩ := index1_3 ⟨((i 0 : ℕ) * 4 + (i 1 : ℕ) / 1024) * 8 + 7, htN⟩
    show i ∈ ((View.whole main_v10).slice (win1_3.rect ⟨((i 0 : ℕ) * 4 + (i 1 : ℕ) / 1024) * 8 + 7, htN⟩)).set
    rw [View.set_slice_whole, Rect.mem_set_unit]
    intro a
    match a with
    | ⟨0, _⟩ =>
      show win1_3.index ⟨((i 0 : ℕ) * 4 + (i 1 : ℕ) / 1024) * 8 + 7, htN⟩ 0 * 1 ≤ (i 0 : ℕ) ∧ (i 0 : ℕ) < win1_3.index ⟨((i 0 : ℕ) * 4 + (i 1 : ℕ) / 1024) * 8 + 7, htN⟩ 0 * 1 + 1
      rw [i0]; dsimp only; omega
    | ⟨1, _⟩ =>
      show win1_3.index ⟨((i 0 : ℕ) * 4 + (i 1 : ℕ) / 1024) * 8 + 7, htN⟩ 1 * 1024 ≤ (i 1 : ℕ) ∧ (i 1 : ℕ) < win1_3.index ⟨((i 0 : ℕ) * 4 + (i 1 : ℕ) / 1024) * 8 + 7, htN⟩ 1 * 1024 + 1024
      rw [i1]; dsimp only; omega
    | ⟨2, _⟩ =>
      show win1_3.index ⟨((i 0 : ℕ) * 4 + (i 1 : ℕ) / 1024) * 8 + 7, htN⟩ 2 * 1024 ≤ (i 2 : ℕ) ∧ (i 2 : ℕ) < win1_3.index ⟨((i 0 : ℕ) * 4 + (i 1 : ℕ) / 1024) * 8 + 7, htN⟩ 2 * 1024 + 1024
      rw [i2]; omega

end Final

end Cert.KernelIdeal.HandValue

end
-- ==== Proof.KI.Value.lean ====
/-
  The kernel program's result. The attention call leaves, at batch `b`, row `i`, column `f`, the sum over all keys
  `j` of logistic(score · 1/16) times the projected value row; with the three arrays it reads being the projections
  of the inputs, that is the specification's function of the arguments.
-/
import proofs.«163519_j26173530702693_1_alg».proof.Proof.KI.Proj
import proofs.«163519_j26173530702693_1_alg».proof.Proof.KI.R1Value

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- What the attention call leaves in the result array is the specification's function of the argument arrays. -/
theorem result_eq (c : Dev nD) :
    (dat1 (V3 m ρ) c).arrAt 3 cfg1.N = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [arrAt1_3 (V3 m ρ) c]
  funext y
  obtain ⟨b, i, f, rfl⟩ : ∃ (b : Fin 4) (i : Fin 4096) (f : Fin 1024), y = ix3 b i f := ⟨y 0, y 1, y 2, eq_ix3 y⟩
  unfold attnRows Cert.Spec.G Cert.Spec.outAt Cert.Spec.weight Cert.Spec.score
  exact Finset.sum_congr rfl fun j _ => congrArg₂ (· * ·)
    (congrArg Ideal.logistic (congrArg (· * Ideal.ofBits .f32 0x3D800000#32)
      (Finset.sum_congr rfl fun e _ => congrArg₂ (· * ·) (qp_apply m ρ c b i e) (kp_apply m ρ c b j e))))
    (vp_apply m ρ c b j f)

/-- Every weakly fair execution of the kernel program terminates with the result array at the specification's
    function of the arguments, and the arguments unchanged. -/
theorem run_G : θ_run defs (onTc (τ := τ) (main (F := Ideal))) ⟨m, fun _ => 0, ρ⟩ (fun r => ∀ c : Dev nD,
      r.2.mem ((c.tc : Thread nD τ).loc main_v10) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (result_eq m ρ c), (h c).2⟩) (run_result m ρ)

end Cert.KernelIdeal.HandValue

end
-- ==== Proof.RefValue.lean ====
import proofs.«163519_j26173530702693_1_alg».proof.Proof.Gen.ReferenceIdeal.Read
import proofs.«163519_j26173530702693_1_alg».proof.Proof.Spec

/-!
The reference program computes the specification `G`, read one result element at a time.

For a batch `b`, a query row `i` and an output column `f`, the reference's result element is the sum over the key
rows `j` of  1 / (1 + exp (-(score b i j / 16)))  times the projected value row, where every projection is a sum of
products plus a bias entry. Dividing by the real number 16 is multiplying by the real number 1/16 on the extended
reals (at the infinities too), and 1 / (1 + exp (-x)) is the logistic function of `x` by definition. The
4 × 4096 × 4096 array of weights is only ever read at one index.
-/

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Three binary words as extended reals -/

/-- The word `0x41800000` denotes the real number 16. -/
theorem ofBits_sixteen : Ideal.ofBits .f32 0x41800000#32 = ((16 : ℝ) : EReal) := by
  simp [Ideal.ofBits, Ideal.ieee, -EReal.coe_mul]; norm_num

/-- The word `0x3D800000` denotes the real number 1/16. -/
theorem ofBits_sixteenth : Ideal.ofBits .f32 0x3D800000#32 = ((1 / 16 : ℝ) : EReal) := by
  simp [Ideal.ofBits, Ideal.ieee, -EReal.coe_mul]; norm_num

/-- The word `0x3F800000` denotes 1. -/
theorem ofBits_one : Ideal.ofBits .f32 0x3F800000#32 = 1 := by
  simp [Ideal.ofBits, Ideal.ieee, -EReal.coe_mul]; norm_num

/-- Dividing by the word for 16 is multiplying by the word for 1/16, for every extended real. -/
theorem div_sixteen (x : EReal) :
    Ideal.div x (Ideal.ofBits .f32 0x41800000#32) = x * Ideal.ofBits .f32 0x3D800000#32 := by
  rw [ofBits_sixteen, ofBits_sixteenth]
  exact Ideal.div_coe (by norm_num) x

/-! ## The index functions of the reference's operations, by coordinates -/

section Indices

variable (b : Fin 4) (s : Fin 4096)

theorem lidx_v0 (e : Fin 256) (d : Fin 1024) : lidx_main_v0 (ix3 b s e) d = ix3 b s d :=
  funext fun a => Fin.ext (by match a with | ⟨0, _⟩ => rfl | ⟨1, _⟩ => rfl | ⟨2, _⟩ => rfl)
theorem ridx_v0 (e : Fin 256) (d : Fin 1024) : ridx_main_v0 (ix3 b s e) d = ix2 e d :=
  funext fun a => Fin.ext (by match a with | ⟨0, _⟩ => rfl | ⟨1, _⟩ => rfl)
theorem idx_v2_v1 (e : Fin 256) : idx_main_v1 (idx_main_v2 (ix3 b s e)) = ix1 e :=
  funext fun a => Fin.ext (by match a with | ⟨0, _⟩ => rfl)

theorem lidx_v4 (e : Fin 256) (d : Fin 1024) : lidx_main_v4 (ix3 b s e) d = ix3 b s d :=
  funext fun a => Fin.ext (by match a with | ⟨0, _⟩ => rfl | ⟨1, _⟩ => rfl | ⟨2, _⟩ => rfl)
theorem ridx_v4 (e : Fin 256) (d : Fin 1024) : ridx_main_v4 (ix3 b s e) d = ix2 e d :=
  funext fun a => Fin.ext (by match a with | ⟨0, _⟩ => rfl | ⟨1, _⟩ => rfl)
theorem idx_v6_v5 (e : Fin 256) : idx_main_v5 (idx_main_v6 (ix3 b s e)) = ix1 e :=
  funext fun a => Fin.ext (by match a with | ⟨0, _⟩ => rfl)

theorem lidx_v8 (f : Fin 1024) (d : Fin 1024) : lidx_main_v8 (ix3 b s f) d = ix3 b s d :=
  funext fun a => Fin.ext (by match a with | ⟨0, _⟩ => rfl | ⟨1, _⟩ => rfl | ⟨2, _⟩ => rfl)
theorem ridx_v8 (f : Fin 1024) (d : Fin 1024) : ridx_main_v8 (ix3 b s f) d = ix2 f d :=
  funext fun a => Fin.ext (by match a with | ⟨0, _⟩ => rfl | ⟨1, _⟩ => rfl)
theorem idx_v10_v9 (f : Fin 1024) : idx_main_v9 (idx_main_v10 (ix3 b s f)) = ix1 f :=
  funext fun a => Fin.ext (by match a with | ⟨0, _⟩ => rfl)

theorem lidx_v12 (j : Fin 4096) (e : Fin 256) : lidx_main_v12 (ix3 b s j) e = ix3 b s e :=
  funext fun a => Fin.ext (by match a with | ⟨0, _⟩ => rfl | ⟨1, _⟩ => rfl | ⟨2, _⟩ => rfl)
theorem ridx_v12 (j : Fin 4096) (e : Fin 256) : ridx_main_v12 (ix3 b s j) e = ix3 b j e :=
  funext fun a => Fin.ext (by match a with | ⟨0, _⟩ => rfl | ⟨1, _⟩ => rfl | ⟨2, _⟩ => rfl)

theorem lidx_v21 (f : Fin 1024) (j : Fin 4096) : lidx_main_v21 (ix3 b s f) j = ix3 b s j :=
  funext fun a => Fin.ext (by match a with | ⟨0, _⟩ => rfl | ⟨1, _⟩ => rfl | ⟨2, _⟩ => rfl)
theorem ridx_v21 (f : Fin 1024) (j : Fin 4096) : ridx_main_v21 (ix3 b s f) j = ix3 b j f :=
  funext fun a => Fin.ext (by match a with | ⟨0, _⟩ => rfl | ⟨1, _⟩ => rfl | ⟨2, _⟩ => rfl)

end Indices

/-! ## The reference's intermediate arrays at an index -/

section Values

variable (q k v : Cert.Spec.SX.Idx → EReal)
  (Wq : (Cert.Spec.SW 256).Idx → EReal) (bq : (Cert.Spec.SB 256).Idx → EReal)
  (Wk : (Cert.Spec.SW 256).Idx → EReal) (bk : (Cert.Spec.SB 256).Idx → EReal)
  (Wv : (Cert.Spec.SW 1024).Idx → EReal) (bv : (Cert.Spec.SB 1024).Idx → EReal)

/-- The projected queries: a sum of products over the 1024 input columns, plus the bias entry. -/
theorem projQ_at (b : Fin 4) (s : Fin 4096) (e : Fin 256) :
    val_main_v3 (F := Ideal) q Wq bq (ix3 b s e) = Cert.Spec.proj q Wq bq b s e := by
  rw [val_main_v3_apply, val_main_v0_apply, val_main_v2_apply, val_main_v1_apply, idx_v2_v1, Ideal.addf_def]
  unfold Cert.Spec.proj
  refine congrArg (· + bq (ix1 e)) (Finset.sum_congr rfl fun d _ => ?_)
  rw [lidx_v0, ridx_v0]

/-- The projected keys. -/
theorem projK_at (b : Fin 4) (s : Fin 4096) (e : Fin 256) :
    val_main_v7 (F := Ideal) k Wk bk (ix3 b s e) = Cert.Spec.proj k Wk bk b s e := by
  rw [val_main_v7_apply, val_main_v4_apply, val_main_v6_apply, val_main_v5_apply, idx_v6_v5, Ideal.addf_def]
  unfold Cert.Spec.proj
  refine congrArg (· + bk (ix1 e)) (Finset.sum_congr rfl fun d _ => ?_)
  rw [lidx_v4, ridx_v4]

/-- The projected values. -/
theorem projV_at (b : Fin 4) (s : Fin 4096) (f : Fin 1024) :
    val_main_v11 (F := Ideal) v Wv bv (ix3 b s f) = Cert.Spec.proj v Wv bv b s f := by
  rw [val_main_v11_apply, val_main_v8_apply, val_main_v10_apply, val_main_v9_apply, idx_v10_v9, Ideal.addf_def]
  unfold Cert.Spec.proj
  refine congrArg (· + bv (ix1 f)) (Finset.sum_congr rfl fun d _ => ?_)
  rw [lidx_v8, ridx_v8]

/-- The scores: the inner product of a projected query row with a projected key row. -/
theorem score_at (b : Fin 4) (i j : Fin 4096) :
    val_main_v12 (F := Ideal) q k Wq bq Wk bk (ix3 b i j) = Cert.Spec.score q k Wq bq Wk bk b i j := by
  rw [val_main_v12_apply]
  unfold Cert.Spec.score
  refine Finset.sum_congr rfl fun e _ => ?_
  rw [lidx_v12, ridx_v12, projQ_at, projK_at]

/-- The weights: one over one plus the exponential of minus a sixteenth of the score is the logistic function of
    the score times the word for 1/16. -/
theorem weight_at (b : Fin 4) (i j : Fin 4096) :
    val_main_v20 (F := Ideal) q k Wq bq Wk bk (ix3 b i j) = Cert.Spec.weight q k Wq bq Wk bk b i j := by
  rw [val_main_v20_apply, val_main_v19_apply, val_main_cst_1_apply, val_main_v18_apply, val_main_v17_apply,
    val_main_cst_0_apply, val_main_v16_apply, val_main_v15_apply, val_main_v14_apply, val_main_v13_apply,
    val_main_cst_apply, score_at]
  simp only [Ideal.hostDivf_def, Ideal.addf_def, Ideal.hostUnary_exp_def, Ideal.hostNegf_def, Ideal.negf_def,
    Ideal.ofBits_def]
  rw [div_sixteen, ofBits_one]
  rfl

/-- The reference's result is the specification, at every index. -/
theorem val_eq_G :
    val_main_v21 (F := Ideal) q k v Wq bq Wk bk Wv bv = Cert.Spec.G q k v Wq bq Wk bk Wv bv := by
  funext y
  obtain ⟨b, i, f, rfl⟩ : ∃ (b : Fin 4) (i : Fin 4096) (f : Fin 1024), y = ix3 b i f := ⟨y 0, y 1, y 2, eq_ix3 y⟩
  rw [Cert.Spec.G_ix3, val_main_v21_apply]
  unfold Cert.Spec.outAt
  refine Finset.sum_congr rfl fun j _ => ?_
  rw [lidx_v21, ridx_v21, weight_at, projV_at]

end Values

/-! ## The reference's run ends with the specification in its result -/

/-- The run of the reference, with its result read through the specification: in the memory the run ends with, the
    result array is `G` of the nine argument arrays as they were at the start, and the arguments are unchanged. -/
theorem run_G (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v21)
          = Cert.Spec.G (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
              (m ((c.tc : Thread Cert.ReferenceIdeal.nD Cert.ReferenceIdeal.τ).loc Cert.ReferenceIdeal.main_arg7))
              (m ((c.tc : Thread Cert.ReferenceIdeal.nD Cert.ReferenceIdeal.τ).loc Cert.ReferenceIdeal.main_arg8))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)) :=
  (θ_run (Cert.ReferenceIdeal.defs (F := Ideal)) _ _).mono
    (fun _ h c => ⟨(h c).1.trans ((val_main_v21_eq (F := Ideal) _ _ _ _ _ _ _ _ _).trans (val_eq_G _ _ _ _ _ _ _ _ _)), (h c).2⟩)
    (Cert.ReferenceIdeal.Value.run (F := Ideal) m ρ)

end Cert.RefValue

end
-- ==== Proof.lean ====
/-
  The kernel computes, in two calls, the three projections qp = q·Wqᵀ + bq, kp = k·Wkᵀ + bk, vp = v·Wvᵀ + bv
  (row blocks of 512, operands rounded to bf16 on the way into each product) and then, per batch and per block of
  1024 query rows, the sum over eight blocks of 512 keys of logistic(qp·kpᵀ · 1/16)·vp, kept in an accumulator that
  is zeroed at the first key block and copied out at the last. The reference computes the same with whole-array
  contractions and divides the scores by 16.

  Over the extended reals a change of float format is the identity, a product into a zero accumulator is the plain
  sum of products, 1/16 is an exact binary fraction so multiplying by it is dividing by 16 on every extended real,
  the logistic function is 1 / (1 + exp (−x)) on both sides, and the sum over 4096 keys regroups into eight sums
  of 512 by associativity and commutativity alone — no finiteness of the inputs is used. So both programs end with
  the one function `Cert.Spec.G` of the arguments (Proof/Spec.lean).

  The frames: each kernel program's run is assembled from its four segments (host reshapes, the projection call,
  host reshapes, the attention call); the attention call's invariant carries its accumulator from grid point to
  grid point. The reference's frame is its run with the result dropped. The idealization rewrote nothing, so
  there is nothing to preserve.
-/
import proofs.«163519_j26173530702693_1_alg».proof.Defs
import proofs.«163519_j26173530702693_1_alg».proof.Proof.Gen.Kernel
import proofs.«163519_j26173530702693_1_alg».proof.Proof.Gen.KernelIdeal
import proofs.«163519_j26173530702693_1_alg».proof.Proof.Gen.ReferenceIdeal
import proofs.«163519_j26173530702693_1_alg».proof.Proof.Gen.Pre_finite_inputs
import proofs.«163519_j26173530702693_1_alg».proof.Proof.K.Run
import proofs.«163519_j26173530702693_1_alg».proof.Proof.KI.Run
import proofs.«163519_j26173530702693_1_alg».proof.Proof.KI.Value
import proofs.«163519_j26173530702693_1_alg».proof.Proof.RefValue
import Idealize.ShloMosaic.Adequacy
import Idealize.ShloMosaic.Init

noncomputable section

namespace Cert.Proof

open Idealize.ShloMosaic Idealize.SL.Sem

/-- The word-level kernel program runs to the end, faults nowhere, and leaves its arguments as launched. -/
theorem frame_kernel : Cert.frame_Kernel := fun m ρ _ => Cert.Kernel.Hand.frame (F := Bits) m ρ

/-- The same for the kernel program read over the extended reals. -/
theorem frame_kernelIdeal : Cert.frame_KernelIdeal := fun m ρ _ => Cert.KernelIdeal.Hand.frame (F := Ideal) m ρ

/-- The reference's frame is its run with the result dropped. -/
theorem frame_referenceIdeal : Cert.frame_ReferenceIdeal := fun m ρ _ =>
  (θ_run Cert.ReferenceIdeal.defs _ _).mono (fun _ h c => (h c).2) (Cert.RefValue.run_G m ρ)

/-- The idealization rewrote no operation. -/
theorem preserves : Cert.preserves_Kernel_KernelIdeal := trivial

/-- From memories that agree on the arguments both programs end with the specification's function of the
    arguments in their result arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.HandValue.run_G m ρ, ?_⟩
  refine (θ_run Cert.ReferenceIdeal.defs _ _).mono (fun _ h c => ⟨(h c).1.trans ?_, (h c).2⟩) (Cert.RefValue.run_G m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
